-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v17) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S_ : Shape := ⟨0, ![]⟩

class Facts : Prop where
  bcast_S_S500000x2 : S_.BroadcastsInDim S500000x2 (![] : Fin 0 → Fin S500000x2.rank)
  reducesTo_S500000x2_S_d0_1 : S500000x2.ReducesTo [0, 1] S_
  h_S_ : 0 < S_.numel
  bcast_S_S16000000x3 : S_.BroadcastsInDim S16000000x3 (![] : Fin 0 → Fin S16000000x3.rank)
  reducesTo_S16000000x3_S_d0_1 : S16000000x3.ReducesTo [0, 1] S_
  bcast_S_S50x5 : S_.BroadcastsInDim S50x5 (![] : Fin 0 → Fin S50x5.rank)
  reducesTo_S50x5_S_d0_1 : S50x5.ReducesTo [0, 1] S_
  bcast_S_S50 : S_.BroadcastsInDim S50 (![] : Fin 0 → Fin S50.rank)
  reducesTo_S50_S_d0 : S50.ReducesTo [0] S_
  bcast_S_S20x50 : S_.BroadcastsInDim S20x50 (![] : Fin 0 → Fin S20x50.rank)
  reducesTo_S20x50_S_d0_1 : S20x50.ReducesTo [0, 1] S_
  bcast_S_S20 : S_.BroadcastsInDim S20 (![] : Fin 0 → Fin S20.rank)
  reducesTo_S20_S_d0 : S20.ReducesTo [0] S_
  bcast_S_S1x20 : S_.BroadcastsInDim S1x20 (![] : Fin 0 → Fin S1x20.rank)
  reducesTo_S1x20_S_d0_1 : S1x20.ReducesTo [0, 1] S_
  bcast_S_S1 : S_.BroadcastsInDim S1 (![] : Fin 0 → Fin S1.rank)
  reducesTo_S1_S_d0 : S1.ReducesTo [0] S_

variable [Facts]

def fn_part2 {F : FTy → Type} [FloatOps F] (main_arg8 : FVec F S1 .f32) (main_v33 : IVec S_ 1) : IVec S_ 1 :=
  let main_v34 : FVec F S1 .f32 := Host.absf main_arg8
  let main_cst_12 : FVec F S_ .f32 := constant S_ .f32 0x7F800000#32
  let main_v35 : FVec F S1 .f32 := broadcastInDim S1 ![] bcast_S_S1 main_cst_12
  let main_v36 : IVec S1 1 := cmpf .olt main_v34 main_v35
  let main_c_13 : IVec S_ 1 := constantI S_ 1 1#1
  let main_v37 : IVec S_ 1 := (fun x v => Host.reduce IntOp.andi x v reducesTo_S1_S_d0 h_S_) main_v36 main_c_13
  let main_v38 : IVec S_ 1 := andi main_v33 main_v37
  main_v38

def fn_part1 {F : FTy → Type} [FloatOps F] (main_arg5 : FVec F S20x50 .f32) (main_arg6 : FVec F S20 .f32) (main_arg7 : FVec F S1x20 .f32) (main_arg8 : FVec F S1 .f32) (main_v13 : IVec S_ 1) (main_v16 : IVec S50 1) : IVec S_ 1 :=
  let main_c_5 : IVec S_ 1 := constantI S_ 1 1#1
  let main_v17 : IVec S_ 1 := (fun x v => Host.reduce IntOp.andi x v reducesTo_S50_S_d0 h_S_) main_v16 main_c_5
  let main_v18 : IVec S_ 1 := andi main_v13 main_v17
  let main_v19 : FVec F S20x50 .f32 := Host.absf main_arg5
  let main_cst_6 : FVec F S_ .f32 := constant S_ .f32 0x7F800000#32
  let main_v20 : FVec F S20x50 .f32 := broadcastInDim S20x50 ![] bcast_S_S20x50 main_cst_6
  let main_v21 : IVec S20x50 1 := cmpf .olt main_v19 main_v20
  let main_c_7 : IVec S_ 1 := constantI S_ 1 1#1
  let main_v22 : IVec S_ 1 := (fun x v => Host.reduce IntOp.andi x v reducesTo_S20x50_S_d0_1 h_S_) main_v21 main_c_7
  let main_v23 : IVec S_ 1 := andi main_v18 main_v22
  let main_v24 : FVec F S20 .f32 := Host.absf main_arg6
  let main_cst_8 : FVec F S_ .f32 := constant S_ .f32 0x7F800000#32
  let main_v25 : FVec F S20 .f32 := broadcastInDim S20 ![] bcast_S_S20 main_cst_8
  let main_v26 : IVec S20 1 := cmpf .olt main_v24 main_v25
  let main_c_9 : IVec S_ 1 := constantI S_ 1 1#1
  let main_v27 : IVec S_ 1 := (fun x v => Host.reduce IntOp.andi x v reducesTo_S20_S_d0 h_S_) main_v26 main_c_9
  let main_v28 : IVec S_ 1 := andi main_v23 main_v27
  let main_v29 : FVec F S1x20 .f32 := Host.absf main_arg7
  let main_cst_10 : FVec F S_ .f32 := constant S_ .f32 0x7F800000#32
  let main_v30 : FVec F S1x20 .f32 := broadcastInDim S1x20 ![] bcast_S_S1x20 main_cst_10
  let main_v31 : IVec S1x20 1 := cmpf .olt main_v29 main_v30
  let main_c_11 : IVec S_ 1 := constantI S_ 1 1#1
  let main_v32 : IVec S_ 1 := (fun x v => Host.reduce IntOp.andi x v reducesTo_S1x20_S_d0_1 h_S_) main_v31 main_c_11
  let main_v33 : IVec S_ 1 := andi main_v28 main_v32
  fn_part2 (F := F) main_arg8 main_v33

def fn {F : FTy → Type} [FloatOps F] (main_arg0 : FVec F S500000x2 .f32) (main_arg1 : IVec S2x16000000 32) (main_arg2 : FVec F S16000000x3 .f32) (main_arg3 : FVec F S50x5 .f32) (main_arg4 : FVec F S50 .f32) (main_arg5 : FVec F S20x50 .f32) (main_arg6 : FVec F S20 .f32) (main_arg7 : FVec F S1x20 .f32) (main_arg8 : FVec F S1 .f32) : IVec S_ 1 :=
  let main_v0 : FVec F S500000x2 .f32 := Host.absf main_arg0
  let main_cst : FVec F S_ .f32 := constant S_ .f32 0x7F800000#32
  let main_v1 : FVec F S500000x2 .f32 := broadcastInDim S500000x2 ![] bcast_S_S500000x2 main_cst
  let main_v2 : IVec S500000x2 1 := cmpf .olt main_v0 main_v1
  let main_c : IVec S_ 1 := constantI S_ 1 1#1
  let main_v3 : IVec S_ 1 := (fun x v => Host.reduce IntOp.andi x v reducesTo_S500000x2_S_d0_1 h_S_) main_v2 main_c
  let main_v4 : FVec F S16000000x3 .f32 := Host.absf main_arg2
  let main_cst_0 : FVec F S_ .f32 := constant S_ .f32 0x7F800000#32
  let main_v5 : FVec F S16000000x3 .f32 := broadcastInDim S16000000x3 ![] bcast_S_S16000000x3 main_cst_0
  let main_v6 : IVec S16000000x3 1 := cmpf .olt main_v4 main_v5
  let main_c_1 : IVec S_ 1 := constantI S_ 1 1#1
  let main_v7 : IVec S_ 1 := (fun x v => Host.reduce IntOp.andi x v reducesTo_S16000000x3_S_d0_1 h_S_) main_v6 main_c_1
  let main_v8 : IVec S_ 1 := andi main_v3 main_v7
  let main_v9 : FVec F S50x5 .f32 := Host.absf main_arg3
  let main_cst_2 : FVec F S_ .f32 := constant S_ .f32 0x7F800000#32
  let main_v10 : FVec F S50x5 .f32 := broadcastInDim S50x5 ![] bcast_S_S50x5 main_cst_2
  let main_v11 : IVec S50x5 1 := cmpf .olt main_v9 main_v10
  let main_c_3 : IVec S_ 1 := constantI S_ 1 1#1
  let main_v12 : IVec S_ 1 := (fun x v => Host.reduce IntOp.andi x v reducesTo_S50x5_S_d0_1 h_S_) main_v11 main_c_3
  let main_v13 : IVec S_ 1 := andi main_v8 main_v12
  let main_v14 : FVec F S50 .f32 := Host.absf main_arg4
  let main_cst_4 : FVec F S_ .f32 := constant S_ .f32 0x7F800000#32
  let main_v15 : FVec F S50 .f32 := broadcastInDim S50 ![] bcast_S_S50 main_cst_4
  let main_v16 : IVec S50 1 := cmpf .olt main_v14 main_v15
  fn_part1 (F := F) main_arg5 main_arg6 main_arg7 main_arg8 main_v13 main_v16
-- ==== Kernel.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S500000x3 : Shape := ⟨2, ![500000, 3]⟩
abbrev S16000000x1 : Shape := ⟨2, ![16000000, 1]⟩
abbrev S2x500000 : Shape := ⟨2, ![2, 500000]⟩
abbrev S2x524288 : Shape := ⟨2, ![2, 524288]⟩
abbrev S3x500000 : Shape := ⟨2, ![3, 500000]⟩
abbrev S3x524288 : Shape := ⟨2, ![3, 524288]⟩
abbrev S50x2 : Shape := ⟨2, ![50, 2]⟩
abbrev S50x3 : Shape := ⟨2, ![50, 3]⟩
abbrev S50x1 : Shape := ⟨2, ![50, 1]⟩
abbrev S20x1 : Shape := ⟨2, ![20, 1]⟩
abbrev S1x1 : Shape := ⟨2, ![1, 1]⟩
abbrev S1x524288 : Shape := ⟨2, ![1, 524288]⟩
abbrev S2x32768 : Shape := ⟨2, ![2, 32768]⟩
abbrev S3x32768 : Shape := ⟨2, ![3, 32768]⟩
abbrev S1x32768 : Shape := ⟨2, ![1, 32768]⟩
abbrev S50x32768 : Shape := ⟨2, ![50, 32768]⟩
abbrev S20x32768 : Shape := ⟨2, ![20, 32768]⟩
abbrev S1x500000 : Shape := ⟨2, ![1, 500000]⟩
abbrev S500000 : Shape := ⟨1, ![500000]⟩
abbrev S500000x1 : Shape := ⟨2, ![500000, 1]⟩

abbrev nBuf : Space → Nat
  | .hbm => 32
  | .vmem => 13
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S16000000x3, .f32⟩
  | .hbm, ⟨3, _⟩ => ⟨S50x5, .f32⟩
  | .hbm, ⟨4, _⟩ => ⟨S50, .f32⟩
  | .hbm, ⟨5, _⟩ => ⟨S20x50, .f32⟩
  | .hbm, ⟨6, _⟩ => ⟨S20, .f32⟩
  | .hbm, ⟨7, _⟩ => ⟨S1x20, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S500000x3, .f32⟩
  | .hbm, ⟨13, _⟩ => ⟨S16000000x1, .i32⟩
  | .hbm, ⟨14, _⟩ => ⟨S500000x3, .f32⟩
  | .hbm, ⟨15, _⟩ => ⟨S2x500000, .f32⟩
  | .hbm, ⟨16, _⟩ => ⟨S_, .i32⟩
  | .hbm, ⟨17, _⟩ => ⟨S_, .f32⟩
  | .hbm, ⟨18, _⟩ => ⟨S2x524288, .f32⟩
  | .hbm, ⟨19, _⟩ => ⟨S3x500000, .f32⟩
  | .hbm, ⟨20, _⟩ => ⟨S_, .i32⟩
  | .hbm, ⟨21, _⟩ => ⟨S_, .f32⟩
  | .hbm, ⟨22, _⟩ => ⟨S3x524288, .f32⟩
  | .hbm, ⟨23, _⟩ => ⟨S50x2, .f32⟩
  | .hbm, ⟨24, _⟩ => ⟨S50x3, .f32⟩
  | .hbm, ⟨25, _⟩ => ⟨S50x1, .f32⟩
  | .hbm, ⟨26, _⟩ => ⟨S20x1, .f32⟩
  | .hbm, ⟨27, _⟩ => ⟨S1x1, .f32⟩
  | .hbm, ⟨28, _⟩ => ⟨S1x524288, .f32⟩
  | .hbm, ⟨29, _⟩ => ⟨S1x500000, .f32⟩
  | .hbm, ⟨30, _⟩ => ⟨S500000, .f32⟩
  | .hbm, ⟨31, _⟩ => ⟨S500000x1, .f32⟩
  | .local _ .vmem, ⟨0, _⟩ => ⟨S2x32768, .f32⟩
  | .local _ .vmem, ⟨1, _⟩ => ⟨S2x32768, .f32⟩
  | .local _ .vmem, ⟨2, _⟩ => ⟨S3x32768, .f32⟩
  | .local _ .vmem, ⟨3, _⟩ => ⟨S3x32768, .f32⟩
  | .local _ .vmem, ⟨4, _⟩ => ⟨S50x2, .f32⟩
  | .local _ .vmem, ⟨5, _⟩ => ⟨S50x3, .f32⟩
  | .local _ .vmem, ⟨6, _⟩ => ⟨S50x1, .f32⟩
  | .local _ .vmem, ⟨7, _⟩ => ⟨S20x50, .f32⟩
  | .local _ .vmem, ⟨8, _⟩ => ⟨S20x1, .f32⟩
  | .local _ .vmem, ⟨9, _⟩ => ⟨S1x20, .f32⟩
  | .local _ .vmem, ⟨10, _⟩ => ⟨S1x1, .f32⟩
  | .local _ .vmem, ⟨11, _⟩ => ⟨S1x32768, .f32⟩
  | .local _ .vmem, ⟨12, _⟩ => ⟨S1x32768, .f32⟩
  | _, _ => ⟨S500000x2, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | _, _ => false

abbrev semScoped : Fin 0 → Bool
  | ⟨_, h⟩ => absurd h (Nat.not_lt_zero _)

abbrev dmaSemScoped : Fin 13 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | _ => false

abbrev sig : RefSig :=
  ofTc nBuf bufTy 0 13 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_c : Ref sig .tc := ⟨.hbm, 16, rfl⟩
abbrev main_call0_v0 : Ref sig .tc := ⟨.hbm, 17, rfl⟩
abbrev main_v6 : Ref sig .tc := ⟨.hbm, 18, rfl⟩
abbrev main_v7 : Ref sig .tc := ⟨.hbm, 19, rfl⟩
abbrev main_c_0 : Ref sig .tc := ⟨.hbm, 20, rfl⟩
abbrev main_call1_v0 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg9_0 : Ref sig .tc := ⟨.vmem, 11, rfl⟩
abbrev cc0_stg9_1 : Ref sig .tc := ⟨.vmem, 12, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc0_sem9_1 : DmaSem sig := 12

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage0_0 : Fin 2 → Memref sig .tc .vmem S2x32768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S3x32768 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S50x2 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S50x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S50x1 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S20x50 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S20x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1x20 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x1 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 2 → Memref sig .tc .vmem S1x32768 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true]

class Facts₀ : Prop where
  slices_S2x16000000_S1x16000000_1_0 : S2x16000000.Slices ![1, 0] S1x16000000
  shapeCasts_S1x16000000_S16000000 : S1x16000000.ShapeCasts S16000000
  bcast_S_S500000x3 : S_.BroadcastsInDim S500000x3 (![] : Fin 0 → Fin S500000x3.rank)
  bcast_S16000000_S16000000x1_0 : S16000000.BroadcastsInDim S16000000x1 (![0] : Fin 1 → Fin S16000000x1.rank)
  transposes_S500000x2_S2x500000_1_0 : S500000x2.Transposes [1, 0] S2x500000
  pads_S2x500000_S2x524288_000_0242880 : S2x500000.Pads (![0, 0] : Fin 2 → Nat) ![0, 24288] ![0, 0] S2x524288
  h_S_ : 0 < S_.numel
  transposes_S500000x3_S3x500000_1_0 : S500000x3.Transposes [1, 0] S3x500000
  pads_S3x500000_S3x524288_000_0242880 : S3x500000.Pads (![0, 0] : Fin 2 → Nat) ![0, 24288] ![0, 0] S3x524288
  slices_S50x5_S50x2_0_0 : S50x5.Slices ![0, 0] S50x2
  slices_S50x5_S50x3_0_2 : S50x5.Slices ![0, 2] S50x3
  shapeCasts_S50_S50x1 : S50.ShapeCasts S50x1
  shapeCasts_S20_S20x1 : S20.ShapeCasts S20x1
  shapeCasts_S1_S1x1 : S1.ShapeCasts S1x1
  inb_S2x32768_S2x32768_0_0 : ∀ a, (![0, 0] : Fin 2 → Nat) a + S2x32768.size a ≤ S2x32768.size a
  h_S2x32768 : 0 < S2x32768.numel
  shapeCasts_S2x32768_S2x32768 : S2x32768.ShapeCasts S2x32768
  bitsLt_bf16_f32 : FTy.bits .bf16 < FTy.bits .f32
  inb_S3x32768_S3x32768_0_0 : ∀ a, (![0, 0] : Fin 2 → Nat) a + S3x32768.size a ≤ S3x32768.size a
  h_S3x32768 : 0 < S3x32768.numel
  shapeCasts_S3x32768_S3x32768 : S3x32768.ShapeCasts S3x32768
  inb_S50x2_S50x2_0_0 : ∀ a, (![0, 0] : Fin 2 → Nat) a + S50x2.size a ≤ S50x2.size a
  h_S50x2 : 0 < S50x2.numel
  shapeCasts_S50x2_S50x2 : S50x2.ShapeCasts S50x2
  inb_S50x3_S50x3_0_0 : ∀ a, (![0, 0] : Fin 2 → Nat) a + S50x3.size a ≤ S50x3.size a
  h_S50x3 : 0 < S50x3.numel
  shapeCasts_S50x3_S50x3 : S50x3.ShapeCasts S50x3
  inb_S50x1_S50x1_0_0 : ∀ a, (![0, 0] : Fin 2 → Nat) a + S50x1.size a ≤ S50x1.size a
  h_S50x1 : 0 < S50x1.numel
  shapeCasts_S50x1_S50x1 : S50x1.ShapeCasts S50x1
  broadcasts_S50x1_S50x32768 : S50x1.Broadcasts S50x32768
  inb_S20x50_S20x50_0_0 : ∀ a, (![0, 0] : Fin 2 → Nat) a + S20x50.size a ≤ S20x50.size a
  h_S20x50 : 0 < S20x50.numel
  inb_S20x1_S20x1_0_0 : ∀ a, (![0, 0] : Fin 2 → Nat) a + S20x1.size a ≤ S20x1.size a
  h_S20x1 : 0 < S20x1.numel
  shapeCasts_S20x1_S20x1 : S20x1.ShapeCasts S20x1
  broadcasts_S20x1_S20x32768 : S20x1.Broadcasts S20x32768
  inb_S1x20_S1x20_0_0 : ∀ a, (![0, 0] : Fin 2 → Nat) a + S1x20.size a ≤ S1x20.size a
  h_S1x20 : 0 < S1x20.numel
  inb_S1x1_S1x1_0_0 : ∀ a, (![0, 0] : Fin 2 → Nat) a + S1x1.size a ≤ S1x1.size a
  h_S1x1 : 0 < S1x1.numel
  shapeCasts_S1x1_S1x1 : S1x1.ShapeCasts S1x1
  broadcasts_S1x1_S1x32768 : S1x1.Broadcasts S1x32768
  inb_S1x32768_S1x32768_0_0 : ∀ a, (![0, 0] : Fin 2 → Nat) a + S1x32768.size a ≤ S1x32768.size a
  h_S1x32768 : 0 < S1x32768.numel
  slices_S1x524288_S1x500000_0_0 : S1x524288.Slices ![0, 0] S1x500000
  shapeCasts_S1x500000_S500000 : S1x500000.ShapeCasts S500000
  shapeCasts_S500000_S500000x1 : S500000.ShapeCasts S500000x1
  scatter_S500000x3_S16000000x1_S16000000x3_1_0_0_1_wf : ScatterDims.WF S500000x3 S16000000x1 S16000000x3 [1] [0] [0] 1
  dot_S50x2_S2x32768_S50x32768_1_0_0_1_n_n_wf : DotDims.WF S50x2 S2x32768 S50x32768 [1] [0] [0] [1] [] []
  dot_S50x3_S3x32768_S50x32768_1_0_0_1_n_n_wf : DotDims.WF S50x3 S3x32768 S50x32768 [1] [0] [0] [1] [] []
  dot_S20x50_S50x32768_S20x32768_1_0_0_1_n_n_wf : DotDims.WF S20x50 S50x32768 S20x32768 [1] [0] [0] [1] [] []
  dot_S1x20_S20x32768_S1x32768_1_0_0_1_n_n_wf : DotDims.WF S1x20 S20x32768 S1x32768 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2x32768.size a ≤ S2x524288.size a
  hwx0_0 : ∀ i : grid0.Coords, EltTy.bits .f32 = 32 ∨ (Rect.block (s := S2x524288) S2x32768.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S3x32768.size a ≤ S3x524288.size a
  hwx0_1 : ∀ i : grid0.Coords, EltTy.bits .f32 = 32 ∨ (Rect.block (s := S3x524288) S3x32768.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S50x2.size a ≤ S50x2.size a
  hwx0_2 : ∀ i : grid0.Coords, EltTy.bits .f32 = 32 ∨ (Rect.block (s := S50x2) S50x2.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S50x3.size a ≤ S50x3.size a
  hwx0_3 : ∀ i : grid0.Coords, EltTy.bits .f32 = 32 ∨ (Rect.block (s := S50x3) S50x3.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S50x1.size a ≤ S50x1.size a
  hwx0_4 : ∀ i : grid0.Coords, EltTy.bits .f32 = 32 ∨ (Rect.block (s := S50x1) S50x1.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S20x50.size a ≤ S20x50.size a
  hwx0_5 : ∀ i : grid0.Coords, EltTy.bits .f32 = 32 ∨ (Rect.block (s := S20x50) S20x50.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S20x1.size a ≤ S20x1.size a
  hwx0_6 : ∀ i : grid0.Coords, EltTy.bits .f32 = 32 ∨ (Rect.block (s := S20x1) S20x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1x20.size a ≤ S1x20.size a
  hwx0_7 : ∀ i : grid0.Coords, EltTy.bits .f32 = 32 ∨ (Rect.block (s := S1x20) S1x20.size (cc0_transform_7 i) (hinb0_7 i)).WholeWords (EltTy.packing .f32)
  hstage0_8 : ∀ j, (stage0_8 j).IsWhole
  nbuf0_8 : grid0.bufCount reads0_8 true = 1
  hreads0_8 : ∀ i i' : grid0.Coords, (∀ a, reads0_8 a = true → i a = i' a) → cc0_transform_8 i = cc0_transform_8 i'
  hinb0_8 : ∀ (i : grid0.Coords) a, (cc0_transform_8 i a + 1) * S1x1.size a ≤ S1x1.size a
  hwx0_8 : ∀ i : grid0.Coords, EltTy.bits .f32 = 32 ∨ (Rect.block (s := S1x1) S1x1.size (cc0_transform_8 i) (hinb0_8 i)).WholeWords (EltTy.packing .f32)
  hstage0_9 : ∀ j, (stage0_9 j).IsWhole
  nbuf0_9 : grid0.bufCount reads0_9 false = 2
  hreads0_9 : ∀ i i' : grid0.Coords, (∀ a, reads0_9 a = true → i a = i' a) → cc0_transform_9 i = cc0_transform_9 i'
  hinb0_9 : ∀ (i : grid0.Coords) a, (cc0_transform_9 i a + 1) * S1x32768.size a ≤ S1x524288.size a
  hwx0_9 : ∀ i : grid0.Coords, EltTy.bits .f32 = 32 ∨ (Rect.block (s := S1x524288) S1x32768.size (cc0_transform_9 i) (hinb0_9 i)).WholeWords (EltTy.packing .f32)

variable [Facts₀]

def scatter_S500000x3_S16000000x1_S16000000x3_1_0_0_1 : ScatterDims S500000x3 S16000000x1 S16000000x3 where
  updateWindowDims := [1]
  insertedWindowDims := [0]
  scatterDimsToOperandDims := [0]
  indexVectorDim := 1
  wf := scatter_S500000x3_S16000000x1_S16000000x3_1_0_0_1_wf
def dot_S50x2_S2x32768_S50x32768_1_0_0_1_n_n : DotDims S50x2 S2x32768 S50x32768 where
  lhsContracting := [1]
  rhsContracting := [0]
  lhsNonContracting := [0]
  rhsNonContracting := [1]
  lhsBatch := []
  rhsBatch := []
  wf := dot_S50x2_S2x32768_S50x32768_1_0_0_1_n_n_wf
def dot_S50x3_S3x32768_S50x32768_1_0_0_1_n_n : DotDims S50x3 S3x32768 S50x32768 where
  lhsContracting := [1]
  rhsContracting := [0]
  lhsNonContracting := [0]
  rhsNonContracting := [1]
  lhsBatch := []
  rhsBatch := []
  wf := dot_S50x3_S3x32768_S50x32768_1_0_0_1_n_n_wf
def dot_S20x50_S50x32768_S20x32768_1_0_0_1_n_n : DotDims S20x50 S50x32768 S20x32768 where
  lhsContracting := [1]
  rhsContracting := [0]
  lhsNonContracting := [0]
  rhsNonContracting := [1]
  lhsBatch := []
  rhsBatch := []
  wf := dot_S20x50_S50x32768_S20x32768_1_0_0_1_n_n_wf
def dot_S1x20_S20x32768_S1x32768_1_0_0_1_n_n : DotDims S1x20 S20x32768 S1x32768 where
  lhsContracting := [1]
  rhsContracting := [0]
  lhsNonContracting := [0]
  rhsNonContracting := [1]
  lhsBatch := []
  rhsBatch := []
  wf := dot_S1x20_S20x32768_S1x32768_1_0_0_1_n_n_wf

abbrev win0_0 : Pipeline.Window sig grid0 :=
  Pipeline.Window.ofSpec (Memref.whole main_v6) S2x32768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v8) S3x32768.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v9) S50x2.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v10) S50x3.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v11) S50x1.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg5) S20x50.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v12) S20x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg7) S1x20.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v13) S1x1.size cc0_transform_8 reads0_8 false true 1 stage0_8 sem0_8
    hrank0 hreads0_8 hinb0_8 nbuf0_8 (Memref.isWhole_whole _) hwx0_8 hstage0_8

abbrev win0_9 : Pipeline.Window sig grid0 :=
  Pipeline.Window.ofSpec (Memref.whole main_v14) S1x32768.size cc0_transform_9 reads0_9 true false 2 stage0_9 sem0_9
    hrank0 hreads0_9 hinb0_9 nbuf0_9 (Memref.isWhole_whole _) hwx0_9 hstage0_9

abbrev win0 : Fin 10 → Pipeline.Window sig grid0 := fun | 0 => win0_0 | 1 => win0_1 | 2 => win0_2 | 3 => win0_3 | 4 => win0_4 | 5 => win0_5 | 6 => win0_6 | 7 => win0_7 | 8 => win0_8 | 9 => win0_9 | ⟨_ + 10, h⟩ => absurd h (Nat.not_lt.2 (Nat.le_add_left _ _))
abbrev spec0 : Fin 10 → Pipeline.WinSpec sig grid0.rank := fun w => (win0 w).toWinSpec

class Facts : Prop extends Facts₀ where

variable [Facts]
-- ==== ReferenceIdeal.lean ====
abbrev S500000x2 : Shape := ⟨2, ![500000, 2]⟩
abbrev S2x16000000 : Shape := ⟨2, ![2, 16000000]⟩
abbrev S16000000x3 : Shape := ⟨2, ![16000000, 3]⟩
abbrev S50x5 : Shape := ⟨2, ![50, 5]⟩
abbrev S50 : Shape := ⟨1, ![50]⟩
abbrev S20x50 : Shape := ⟨2, ![20, 50]⟩
abbrev S20 : Shape := ⟨1, ![20]⟩
abbrev S1x20 : Shape := ⟨2, ![1, 20]⟩
abbrev S1 : Shape := ⟨1, ![1]⟩
abbrev S1x16000000 : Shape := ⟨2, ![1, 16000000]⟩
abbrev S16000000 : Shape := ⟨1, ![16000000]⟩
abbrev S_ : Shape := ⟨0, ![]⟩
abbrev S500000x3 : Shape := ⟨2, ![500000, 3]⟩
abbrev S16000000x1 : Shape := ⟨2, ![16000000, 1]⟩
abbrev S500000x5 : Shape := ⟨2, ![500000, 5]⟩
abbrev S5x50 : Shape := ⟨2, ![5, 50]⟩
abbrev S500000x50 : Shape := ⟨2, ![500000, 50]⟩
abbrev S1x50 : Shape := ⟨2, ![1, 50]⟩
abbrev S50x20 : Shape := ⟨2, ![50, 20]⟩
abbrev S500000x20 : Shape := ⟨2, ![500000, 20]⟩
abbrev S20x1 : Shape := ⟨2, ![20, 1]⟩
abbrev S500000x1 : Shape := ⟨2, ![500000, 1]⟩
abbrev S1x1 : Shape := ⟨2, ![1, 1]⟩

abbrev nBuf : Space → Nat
  | .hbm => 37
  | .vmem => 0
  | .smem => 0
  | _ => 0

abbrev bufTy : (tb : Table) → Fin (tcTables nBuf tb) → BufTy
  | .hbm, ⟨0, _⟩ => ⟨S500000x2, .f32⟩
  | .hbm, ⟨1, _⟩ => ⟨S2x16000000, .i32⟩
  | .hbm, ⟨2, _⟩ => ⟨S16000000x3, .f32⟩
  | .hbm, ⟨3, _⟩ => ⟨S50x5, .f32⟩
  | .hbm, ⟨4, _⟩ => ⟨S50, .f32⟩
  | .hbm, ⟨5, _⟩ => ⟨S20x50, .f32⟩
  | .hbm, ⟨6, _⟩ => ⟨S20, .f32⟩
  | .hbm, ⟨7, _⟩ => ⟨S1x20, .f32⟩
  | .hbm, ⟨8, _⟩ => ⟨S1, .f32⟩
  | .hbm, ⟨9, _⟩ => ⟨S1x16000000, .i32⟩
  | .hbm, ⟨10, _⟩ => ⟨S16000000, .i32⟩
  | .hbm, ⟨11, _⟩ => ⟨S_, .f32⟩
  | .hbm, ⟨12, _⟩ => ⟨S500000x3, .f32⟩
  | .hbm, ⟨13, _⟩ => ⟨S16000000x1, .i32⟩
  | .hbm, ⟨14, _⟩ => ⟨S500000x3, .f32⟩
  | .hbm, ⟨15, _⟩ => ⟨S500000x5, .f32⟩
  | .hbm, ⟨16, _⟩ => ⟨S5x50, .f32⟩
  | .hbm, ⟨17, _⟩ => ⟨S500000x50, .f32⟩
  | .hbm, ⟨18, _⟩ => ⟨S1x50, .f32⟩
  | .hbm, ⟨19, _⟩ => ⟨S500000x50, .f32⟩
  | .hbm, ⟨20, _⟩ => ⟨S500000x50, .f32⟩
  | .hbm, ⟨21, _⟩ => ⟨S_, .f32⟩
  | .hbm, ⟨22, _⟩ => ⟨S500000x50, .f32⟩
  | .hbm, ⟨23, _⟩ => ⟨S500000x50, .f32⟩
  | .hbm, ⟨24, _⟩ => ⟨S50x20, .f32⟩
  | .hbm, ⟨25, _⟩ => ⟨S500000x20, .f32⟩
  | .hbm, ⟨26, _⟩ => ⟨S1x20, .f32⟩
  | .hbm, ⟨27, _⟩ => ⟨S500000x20, .f32⟩
  | .hbm, ⟨28, _⟩ => ⟨S500000x20, .f32⟩
  | .hbm, ⟨29, _⟩ => ⟨S_, .f32⟩
  | .hbm, ⟨30, _⟩ => ⟨S500000x20, .f32⟩
  | .hbm, ⟨31, _⟩ => ⟨S500000x20, .f32⟩
  | .hbm, ⟨32, _⟩ => ⟨S20x1, .f32⟩
  | .hbm, ⟨33, _⟩ => ⟨S500000x1, .f32⟩
  | .hbm, ⟨34, _⟩ => ⟨S1x1, .f32⟩
  | .hbm, ⟨35, _⟩ => ⟨S500000x1, .f32⟩
  | .hbm, ⟨36, _⟩ => ⟨S500000x1, .f32⟩
  | _, _ => ⟨S500000x2, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_cst : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_call0_cst : Ref sig .tc := ⟨.hbm, 21, rfl⟩
abbrev main_call0_v0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_call1_cst : Ref sig .tc := ⟨.hbm, 29, rfl⟩
abbrev main_call1_v0 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩

abbrev nD : Nat := 1
abbrev τ : Topo := Topo.v7x

variable {F : FTy → Type} [FloatOps F]

class Facts₀ : Prop where
  slices_S2x16000000_S1x16000000_1_0 : S2x16000000.Slices ![1, 0] S1x16000000
  shapeCasts_S1x16000000_S16000000 : S1x16000000.ShapeCasts S16000000
  bcast_S_S500000x3 : S_.BroadcastsInDim S500000x3 (![] : Fin 0 → Fin S500000x3.rank)
  bcast_S16000000_S16000000x1_0 : S16000000.BroadcastsInDim S16000000x1 (![0] : Fin 1 → Fin S16000000x1.rank)
  concatenates_S500000x2_S500000x3_S500000x5_d1 : Shape.Concatenates [S500000x2, S500000x3] S500000x5 1
  transposes_S50x5_S5x50_1_0 : S50x5.Transposes [1, 0] S5x50
  bcast_S50_S1x50_1 : S50.BroadcastsInDim S1x50 (![1] : Fin 1 → Fin S1x50.rank)
  bcast_S1x50_S500000x50_0_1 : S1x50.BroadcastsInDim S500000x50 (![0, 1] : Fin 2 → Fin S500000x50.rank)
  bcast_S_S500000x50 : S_.BroadcastsInDim S500000x50 (![] : Fin 0 → Fin S500000x50.rank)
  transposes_S20x50_S50x20_1_0 : S20x50.Transposes [1, 0] S50x20
  bcast_S20_S1x20_1 : S20.BroadcastsInDim S1x20 (![1] : Fin 1 → Fin S1x20.rank)
  bcast_S1x20_S500000x20_0_1 : S1x20.BroadcastsInDim S500000x20 (![0, 1] : Fin 2 → Fin S500000x20.rank)
  bcast_S_S500000x20 : S_.BroadcastsInDim S500000x20 (![] : Fin 0 → Fin S500000x20.rank)
  transposes_S1x20_S20x1_1_0 : S1x20.Transposes [1, 0] S20x1
  bcast_S1_S1x1_1 : S1.BroadcastsInDim S1x1 (![1] : Fin 1 → Fin S1x1.rank)
  bcast_S1x1_S500000x1_0_1 : S1x1.BroadcastsInDim S500000x1 (![0, 1] : Fin 2 → Fin S500000x1.rank)
  scatter_S500000x3_S16000000x1_S16000000x3_1_0_0_1_wf : ScatterDims.WF S500000x3 S16000000x1 S16000000x3 [1] [0] [0] 1
  dot_S500000x5_S5x50_S500000x50_1_0_0_1_n_n_wf : DotDims.WF S500000x5 S5x50 S500000x50 [1] [0] [0] [1] [] []
  dot_S500000x50_S50x20_S500000x20_1_0_0_1_n_n_wf : DotDims.WF S500000x50 S50x20 S500000x20 [1] [0] [0] [1] [] []
  dot_S500000x20_S20x1_S500000x1_1_0_0_1_n_n_wf : DotDims.WF S500000x20 S20x1 S500000x1 [1] [0] [0] [1] [] []

variable [Facts₀]

def scatter_S500000x3_S16000000x1_S16000000x3_1_0_0_1 : ScatterDims S500000x3 S16000000x1 S16000000x3 where
  updateWindowDims := [1]
  insertedWindowDims := [0]
  scatterDimsToOperandDims := [0]
  indexVectorDim := 1
  wf := scatter_S500000x3_S16000000x1_S16000000x3_1_0_0_1_wf
def dot_S500000x5_S5x50_S500000x50_1_0_0_1_n_n : DotDims S500000x5 S5x50 S500000x50 where
  lhsContracting := [1]
  rhsContracting := [0]
  lhsNonContracting := [0]
  rhsNonContracting := [1]
  lhsBatch := []
  rhsBatch := []
  wf := dot_S500000x5_S5x50_S500000x50_1_0_0_1_n_n_wf
def dot_S500000x50_S50x20_S500000x20_1_0_0_1_n_n : DotDims S500000x50 S50x20 S500000x20 where
  lhsContracting := [1]
  rhsContracting := [0]
  lhsNonContracting := [0]
  rhsNonContracting := [1]
  lhsBatch := []
  rhsBatch := []
  wf := dot_S500000x50_S50x20_S500000x20_1_0_0_1_n_n_wf
def dot_S500000x20_S20x1_S500000x1_1_0_0_1_n_n : DotDims S500000x20 S20x1 S500000x1 where
  lhsContracting := [1]
  rhsContracting := [0]
  lhsNonContracting := [0]
  rhsNonContracting := [1]
  lhsBatch := []
  rhsBatch := []
  wf := dot_S500000x20_S20x1_S500000x1_1_0_0_1_n_n_wf

class Facts : Prop extends Facts₀ where

variable [Facts]
-- ==== Proof.Mlp.lean ====
/-
  The per-node function both programs compute, on the extended reals.

  A node carries two vertex features `v` and three aggregated edge features `e`. The network is
    h₁ k = max (∑ₐ W₁[k,a]·v a + ∑_b W₁[k,2+b]·e b + b₁ k) 0        (k < 50)
    h₂ j = max (∑ₖ W₂[j,k]·h₁ k + b₂ j) 0                            (j < 20)
    out  = ∑ⱼ W₃[j]·h₂ j + b₃.
  The first layer is written with the five input features split two and three, as the kernel multiplies them; the
  reference concatenates the features and contracts all five at once, which is the same sum (`sum_five_split`),
  and writes each product with its factors in the other order (commutativity of the product). Both facts hold on
  all extended reals, so no finiteness is needed.
-/
import Idealize.ShloMosaic.PureOps.Ideal

noncomputable section

open scoped BigOperators

namespace Cert.Mlp

/-- The rectifier's floor: the zero word of the 32-bit format, as both programs write it. -/
abbrev floor32 : EReal := Idealize.ShloMosaic.Ideal.ofBits .f32 0x00000000#32

/-- The first two of five feature positions. -/
def lo (a : Fin 2) : Fin 5 := ⟨a.val, by omega⟩
/-- The last three of five feature positions. -/
def hi (b : Fin 3) : Fin 5 := ⟨b.val + 2, by omega⟩

/-- A sum over five positions is the sum over the first two plus the sum over the last three. -/
theorem sum_five_split {M : Type*} [AddCommMonoid M] (f : Fin 5 → M) :
    ∑ c : Fin 5, f c = (∑ a : Fin 2, f (lo a)) + (∑ b : Fin 3, f (hi b)) := by
  rw [Fin.sum_univ_five, Fin.sum_univ_two, Fin.sum_univ_three]
  show f 0 + f 1 + f 2 + f 3 + f 4 = (f 0 + f 1) + (f 2 + f 3 + f 4)
  simp only [add_assoc]

/-- The network at one node: `z` is the rectifier's floor, `v` and `e` the node's features, `w1v k a` and
    `w1e k b` the first layer's weights on them. -/
def mlpAt (z : EReal) (v : Fin 2 → EReal) (e : Fin 3 → EReal) (w1v : Fin 50 → Fin 2 → EReal)
    (w1e : Fin 50 → Fin 3 → EReal) (b1 : Fin 50 → EReal) (w2 : Fin 20 → Fin 50 → EReal) (b2 : Fin 20 → EReal)
    (w3 : Fin 20 → EReal) (b3 : EReal) : EReal :=
  (∑ j : Fin 20, w3 j * max ((∑ k : Fin 50, w2 j k *
      max (((∑ a : Fin 2, w1v k a * v a) + (∑ b : Fin 3, w1e k b * e b)) + b1 k) z) + b2 j) z) + b3

/-- The network is a function of its data: equal features, weights and biases give equal results. -/
theorem mlpAt_congr {z : EReal} {v v' : Fin 2 → EReal} {e e' : Fin 3 → EReal} {w1v w1v' : Fin 50 → Fin 2 → EReal}
    {w1e w1e' : Fin 50 → Fin 3 → EReal} {b1 b1' : Fin 50 → EReal} {w2 w2' : Fin 20 → Fin 50 → EReal}
    {b2 b2' : Fin 20 → EReal} {w3 w3' : Fin 20 → EReal} {b3 b3' : EReal}
    (hv : v = v') (he : e = e') (h1v : w1v = w1v') (h1e : w1e = w1e') (hb1 : b1 = b1') (hw2 : w2 = w2')
    (hb2 : b2 = b2') (hw3 : w3 = w3') (hb3 : b3 = b3') :
    mlpAt z v e w1v w1e b1 w2 b2 w3 b3 = mlpAt z v' e' w1v' w1e' b1' w2' b2' w3' b3' := by
  subst hv he h1v h1e hb1 hw2 hb2 hw3 hb3
  rfl

/-- The same network as the reference spells it: the five features `x` contracted at once against the weight row
    `w1 k`, every product with the activation on the left. -/
theorem mlpAt_of_concat (z : EReal) (x : Fin 5 → EReal) (w1 : Fin 50 → Fin 5 → EReal) (b1 : Fin 50 → EReal)
    (w2 : Fin 20 → Fin 50 → EReal) (b2 : Fin 20 → EReal) (w3 : Fin 20 → EReal) (b3 : EReal) :
    (∑ j : Fin 20, max ((∑ k : Fin 50, max ((∑ c : Fin 5, x c * w1 k c) + b1 k) z * w2 j k) + b2 j) z * w3 j) + b3
      = mlpAt z (fun a => x (lo a)) (fun b => x (hi b)) (fun k a => w1 k (lo a)) (fun k b => w1 k (hi b))
          b1 w2 b2 w3 b3 := by
  unfold mlpAt
  congr 1
  refine Finset.sum_congr rfl fun j _ => ?_
  rw [mul_comm]
  congr 3
  refine Finset.sum_congr rfl fun k _ => ?_
  rw [mul_comm]
  congr 3
  rw [sum_five_split]
  congr 1 <;> exact Finset.sum_congr rfl fun _ _ => mul_comm _ _

end Cert.Mlp

end
-- ==== Proof.LibBlock.lean ====
/-
  Blocks read at an index: the vocabulary the three regions share.

  * `hz`: the zero offsets of a rank-2 rectangle, spelt as the constant function;
  * `matmul_zero_ix2`: a plain matrix product `[M, K] × [K, N]` accumulated into the zero splat, read at `(p, q)`, is
    the sum over the contracted coordinate `k : Fin K` of `lhs (p, k) * rhs (k, q)` (any `K`);
  * `lhsIdx_val_row`, `rhsIdx_val_col`: the non-contracted coordinates of the two operand indices.
  (A `[1, n]` row broadcast over `m` rows, read at `(p, c)`, is the library's `ValueIdx.broadcastTo_1b_ab_apply`.)
-/
import Idealize.ShloMosaic.Lib.Pipeline.Value
import Idealize.ShloMosaic.Lib.ValueIdx
import Idealize.ShloMosaic.Lib.ValueLayout
import Idealize.ShloMosaic.PureOps.Ideal.Laws

noncomputable section

open scoped BigOperators

namespace Cert.LibBlock

open Idealize.ShloMosaic Idealize.ShloMosaic.ValueIdx

/-- The zero offsets of a rank-2 rectangle are the constant function `0`. -/
theorem hz : (![0, 0] : Fin 2 → Nat) = fun _ => 0 := funext fun a => by fin_cases a <;> rfl

section Matmul
variable {M K N : Nat} (D : DotDims ⟨2, ![M, K]⟩ ⟨2, ![K, N]⟩ ⟨2, ![M, N]⟩)

/-- With no batch axis and the left operand's rows its one free axis, the left operand index has the result's row. -/
theorem lhsIdx_val_row (hlb : D.lhsBatch = []) (hln : D.lhsNonContracting = [0])
    (j : (⟨2, ![M, N]⟩ : Shape).Idx) (k : D.contr.Idx) : (D.lhsIdx j k 0).val = (j 0).val := by
  unfold DotDims.lhsIdx
  rw [dif_neg (by rw [hlb]; exact List.not_mem_nil), dif_pos (by rw [hln]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln])

/-- With no batch axis, one free axis on the left and the right operand's columns its one free axis, the right operand
    index has the result's column. -/
theorem rhsIdx_val_col (hlb : D.lhsBatch = []) (hln : D.lhsNonContracting = [0]) (hrb : D.rhsBatch = [])
    (hrn : D.rhsNonContracting = [1])
    (j : (⟨2, ![M, N]⟩ : Shape).Idx) (k : D.contr.Idx) : (D.rhsIdx j k 1).val = (j 1).val := by
  unfold DotDims.rhsIdx
  rw [dif_neg (by rw [hrb]; exact List.not_mem_nil), dif_pos (by rw [hrn]; exact List.mem_singleton.mpr rfl)]
  simp only [Fin.val_cast]
  have key : ∀ (a b : Nat) (ha : a < 2) (hb : b < 2), a = b → (j ⟨a, ha⟩).val = (j ⟨b, hb⟩).val :=
    fun a b ha hb h => by subst h; rfl
  exact key _ _ _ _ (by simp [hlb, hln, hrn])

/-- A plain matrix product `[M, K] × [K, N]` into the zero accumulator, read at `(p, q)`:
    `∑ₖ lhs (p, k) * rhs (k, q)`, the sum over the contracted coordinate. -/
theorem matmul_zero_ix2 (hlc : D.lhsContracting = [1]) (hrc : D.rhsContracting = [0])
    (hlb : D.lhsBatch = []) (hln : D.lhsNonContracting = [0]) (hrb : D.rhsBatch = []) (hrn : D.rhsNonContracting = [1])
    {φ₁ φ₂ : FTy} (prec : Option ContractPrecision)
    (lhs : FVec Ideal ⟨2, ![M, K]⟩ φ₁) (rhs : FVec Ideal ⟨2, ![K, N]⟩ φ₂) (p : Fin M) (q : Fin N) :
    FloatOps.matmul D prec lhs rhs (constant (F := Ideal) ⟨2, ![M, N]⟩ .f32 0x00000000#32) (ix2 p q)
      = ∑ k : Fin K, lhs (ix2 p k) * rhs (ix2 k q) := by
  have hr : D.contr.rank = 1 := by rw [D.rank_contr, hlc]; rfl
  have hs : D.contr.size ⟨0, by omega⟩ = K := by
    have h := D.size_contr 0 (by rw [hlc]; exact Nat.one_pos)
    refine h.trans ?_
    have e : D.lhsContracting[0]'(by rw [hlc]; exact Nat.one_pos) = 1 := by simp [hlc]
    rw [e]; rfl
  refine (Ideal.matmul_constant_zero_apply D prec lhs rhs (ix2 p q)).trans ?_
  rw [← Equiv.sum_comp (contrEquiv1 D K hr hs).symm]
  refine Finset.sum_congr rfl fun k _ => ?_
  have hk := contrEquiv1_symm_val D K hr hs k
  have el : D.lhsIdx (ix2 p q) ((contrEquiv1 D K hr hs).symm k) = ix2 p k := funext fun a => Fin.ext (by
    match a with
    | ⟨0, _⟩ => exact lhsIdx_val_row D hlb hln _ _
    | ⟨1, _⟩ => exact (D.lhsIdx_val_of_single hlc _ _).trans hk)
  have er : D.rhsIdx (ix2 p q) ((contrEquiv1 D K hr hs).symm k) = ix2 k q := funext fun a => Fin.ext (by
    match a with
    | ⟨0, _⟩ => exact (D.rhsIdx_val_of_single hrc _ _).trans hk
    | ⟨1, _⟩ => exact rhsIdx_val_col D hlb hln hrb hrn _ _)
  rw [el, er]

end Matmul

end Cert.LibBlock

end
-- ==== Proof.LibColumn.lean ====
/-
  A vector laid out as a column and spread over lanes, read at an index: the two layout steps of a reduction that
  keeps its axis (a row sum or row maximum put back beside the rows it came from).

  * `shapeCast_a_a1_apply`: an `[a]` vector cast to the column `[a, 1]` reads, at `(p, u)`, its entry `p`;
  * `broadcastTo_a1_ab_apply`: a column `[a, 1]` broadcast to `[a, b]` reads, at `(p, c)`, the column's entry `p`.
  Both for any extents `a`, `b` and any element type.
-/
import Idealize.ShloMosaic.Lib.Pipeline.Value
import Idealize.ShloMosaic.Lib.ValueIdx

namespace Cert.LibColumn

open Idealize.ShloMosaic Idealize.ShloMosaic.ValueIdx

variable {α : Type}

/-- An `[a]` vector laid out as a column `[a, 1]` reads, at `(p, u)`, its entry `p`. -/
theorem shapeCast_a_a1_apply {a : ℕ} (x : (⟨1, ![a]⟩ : Shape).Idx → α)
    (h : (⟨1, ![a]⟩ : Shape).ShapeCasts ⟨2, ![a, 1]⟩) (p : Fin a) (u : Fin 1) :
    shapeCast ⟨2, ![a, 1]⟩ x h (ix2 p u) = x (ix1 p) :=
  shapeCast_apply x h _ _ (by
    have hu : u.val = 0 := by omega
    rw [Shape.rowMajor_val_two, Shape.rowMajor_val_one]
    show p.val = p.val * 1 + u.val
    rw [hu, Nat.mul_one, Nat.add_zero])

/-- A column `[a, 1]` spread over `b` lanes reads, at `(p, c)`, the column's entry `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.Body.lean ====
/-
  The kernel body's arithmetic at one lane.

  At a grid point the body holds a [2, 32768] block of vertex features and a [3, 32768] block of aggregated edge
  features, one node per lane, and the weights whole. Its single store writes, at lane `q`, the three-layer network of
  `Mlp.mlpAt` applied to column `q` of the two feature blocks: each of the four matrix products starts from a zero
  accumulator and is the plain sum over its contracted coordinate, each bias is a column spread over the lanes, the
  rectifier is the maximum with the zero word, and the changes of float format between the layers are the identity on
  the extended reals.
-/
import proofs.«145032_j69621419868748_2_alg».proof.Proof.Gen.KernelIdeal.Skeleton
import proofs.«145032_j69621419868748_2_alg».proof.Proof.Mlp
import proofs.«145032_j69621419868748_2_alg».proof.Proof.LibBlock
import proofs.«145032_j69621419868748_2_alg».proof.Proof.LibColumn
import Idealize.ShloMosaic.Lib.ValueIdx
import Idealize.ShloMosaic.Lib.Pipeline.Value
import Idealize.ShloMosaic.PureOps.Ideal.Laws

noncomputable section

open scoped BigOperators

namespace Cert.KernelIdeal.Body

open Idealize.ShloMosaic Idealize.ShloMosaic.ValueIdx Cert.KernelIdeal Cert.KernelIdeal.Gen

/-- The stored value at lane `q` is the network at column `q` of the feature blocks. -/
theorem pay_apply (x0 : Vec Ideal S2x32768 .f32) (x1 : Vec Ideal S3x32768 .f32) (x2 : Vec Ideal S50x2 .f32)
    (x3 : Vec Ideal S50x3 .f32) (x4 : Vec Ideal S50x1 .f32) (x5 : Vec Ideal S20x50 .f32) (x6 : Vec Ideal S20x1 .f32)
    (x7 : Vec Ideal S1x20 .f32) (x8 : Vec Ideal S1x1 .f32) (q : Fin 32768) :
    k0_pay1 (F := Ideal) (k0_pay2 x0 x1 x2 x3 x4 x5 x6 x7) x8 (ix2 (0 : Fin 1) q)
      = Cert.Mlp.mlpAt Cert.Mlp.floor32 (fun a => x0 (ix2 a q)) (fun b => x1 (ix2 b q)) (fun k a => x2 (ix2 k a))
          (fun k b => x3 (ix2 k b)) (fun k => x4 (ix2 k (0 : Fin 1))) (fun j k => x5 (ix2 j k))
          (fun j => x6 (ix2 j (0 : Fin 1))) (fun j => x7 (ix2 (0 : Fin 1) j)) (x8 (ix2 (0 : Fin 1) (0 : Fin 1))) := by
  unfold k0_pay1 k0_pay2 Cert.Mlp.mlpAt
  simp only [shapeCast_self]
  simp only [addf_apply, maximumf_apply, truncf_apply, broadcast_apply,
    Cert.LibBlock.matmul_zero_ix2 dot_S1x20_S20x32768_S1x32768_1_0_0_1_n_n rfl rfl rfl rfl rfl rfl,
    Cert.LibBlock.matmul_zero_ix2 dot_S20x50_S50x32768_S20x32768_1_0_0_1_n_n rfl rfl rfl rfl rfl rfl,
    Cert.LibBlock.matmul_zero_ix2 dot_S50x2_S2x32768_S50x32768_1_0_0_1_n_n rfl rfl rfl rfl rfl rfl,
    Cert.LibBlock.matmul_zero_ix2 dot_S50x3_S3x32768_S50x32768_1_0_0_1_n_n rfl rfl rfl rfl rfl rfl,
    Cert.LibColumn.broadcastTo_a1_ab_apply]
  rfl

/-- An index of the one-row output block is its lane. -/
theorem lane_eq (j : S1x32768.Idx) : j = ix2 (0 : Fin 1) (⟨(j 1).val, (j 1).isLt⟩ : Fin 32768) := by
  funext ax
  match ax with
  | ⟨0, _⟩ => exact Fin.ext (by have h : (j 0).val < 1 := (j 0).isLt; show (j 0).val = 0; omega)
  | ⟨1, _⟩ => rfl

/-- The stored value at any index of the output block. -/
theorem pay_at (x0 : Vec Ideal S2x32768 .f32) (x1 : Vec Ideal S3x32768 .f32) (x2 : Vec Ideal S50x2 .f32)
    (x3 : Vec Ideal S50x3 .f32) (x4 : Vec Ideal S50x1 .f32) (x5 : Vec Ideal S20x50 .f32) (x6 : Vec Ideal S20x1 .f32)
    (x7 : Vec Ideal S1x20 .f32) (x8 : Vec Ideal S1x1 .f32) (j : S1x32768.Idx) :
    k0_pay1 (F := Ideal) (k0_pay2 x0 x1 x2 x3 x4 x5 x6 x7) x8 j
      = Cert.Mlp.mlpAt Cert.Mlp.floor32 (fun a => x0 (ix2 a (⟨(j 1).val, (j 1).isLt⟩ : Fin 32768)))
          (fun b => x1 (ix2 b (⟨(j 1).val, (j 1).isLt⟩ : Fin 32768))) (fun k a => x2 (ix2 k a))
          (fun k b => x3 (ix2 k b)) (fun k => x4 (ix2 k (0 : Fin 1))) (fun j k => x5 (ix2 j k))
          (fun j => x6 (ix2 j (0 : Fin 1))) (fun j => x7 (ix2 (0 : Fin 1) j)) (x8 (ix2 (0 : Fin 1) (0 : Fin 1))) :=
  (congrArg (k0_pay1 (F := Ideal) (k0_pay2 x0 x1 x2 x3 x4 x5 x6 x7) x8) (lane_eq j)).trans
    (pay_apply x0 x1 x2 x3 x4 x5 x6 x7 x8 ⟨(j 1).val, (j 1).isLt⟩)

end Cert.KernelIdeal.Body

end
-- ==== Proof.Region.lean ====
/-
  The region's output array after the run, as one function of the arrays it was launched on.

  The grid has 16 points; point `t` holds lanes [32768·t, 32768·(t+1)) of the two feature arrays and of the output row,
  and every weight and bias whole. What point `t` writes back is therefore block `t` of ONE whole-array function
  `laneNet`: at lane `n`, the network of `Mlp.mlpAt` at column `n` of the launched feature arrays. The 16 blocks tile the
  [1, 524288] output row, so after the run the row IS `laneNet`.
-/
import proofs.«145032_j69621419868748_2_alg».proof.Proof.Gen.KernelIdeal.Frame
import proofs.«145032_j69621419868748_2_alg».proof.Proof.Body
import Idealize.ShloMosaic.Lib.Pipeline.Value
import Idealize.ShloMosaic.Lib.ValueIdx

set_option maxRecDepth 16384

noncomputable section

namespace Cert.KernelIdeal.Region

open Idealize.ShloMosaic Idealize.ShloMosaic.TcCoe Idealize.SL.Sem
open Idealize.ShloMosaic.ValueIdx Idealize.ShloMosaic.Pipeline Cert.KernelIdeal Cert.KernelIdeal.Gen

/-- The network at every lane of the padded node axis, from the arrays the region finds. -/
def laneNet (A0 : S2x524288.Idx → EReal) (A1 : S3x524288.Idx → EReal) (A2 : S50x2.Idx → EReal) (A3 : S50x3.Idx → EReal)
    (A4 : S50x1.Idx → EReal) (A5 : S20x50.Idx → EReal) (A6 : S20x1.Idx → EReal) (A7 : S1x20.Idx → EReal)
    (A8 : S1x1.Idx → EReal) : S1x524288.Idx → EReal := fun i =>
  Cert.Mlp.mlpAt Cert.Mlp.floor32 (fun a => A0 (ix2 a (⟨(i 1).val, (i 1).isLt⟩ : Fin 524288)))
    (fun b => A1 (ix2 b (⟨(i 1).val, (i 1).isLt⟩ : Fin 524288))) (fun k a => A2 (ix2 k a)) (fun k b => A3 (ix2 k b))
    (fun k => A4 (ix2 k (0 : Fin 1))) (fun j k => A5 (ix2 j k)) (fun j => A6 (ix2 j (0 : Fin 1)))
    (fun j => A7 (ix2 (0 : Fin 1) j)) (A8 (ix2 (0 : Fin 1) (0 : Fin 1)))

variable (m : (ℓ : Loc nD τ sig) → Buf (Elt Ideal) ℓ)

/-- The printed index maps over the grid: the two feature windows move along the lanes with the output window, every
    other window stays at its one block, and the output's block index runs over 0..15. -/
theorem idx_facts : ∀ t : Fin cfg0.N,
    win0_0.index t (0 : Fin 2) = 0 ∧ win0_0.index t (1 : Fin 2) = win0_9.index t (1 : Fin 2)
    ∧ win0_1.index t (0 : Fin 2) = 0 ∧ win0_1.index t (1 : Fin 2) = win0_9.index t (1 : Fin 2)
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = 0 ∧ win0_7.index t (1 : Fin 2) = 0
    ∧ win0_8.index t (0 : Fin 2) = 0 ∧ win0_8.index t (1 : Fin 2) = 0
    ∧ win0_9.index t (0 : Fin 2) = 0 ∧ win0_9.index t (1 : Fin 2) ≤ 15 :=
  (by decide +kernel : ∀ t : Fin grid0.N, _)

/-- Every one of the 16 lane blocks is some point's. -/
theorem idx_onto : ∀ q : Fin 16, ∃ t : Fin cfg0.N, win0_9.index t = ![0, q.val] :=
  (by decide +kernel : ∀ q : Fin 16, ∃ t : Fin grid0.N, win0_9.index t = ![0, q.val])

/-- The last bias is staged whole at every point: its one-entry block is the array's one entry. -/
theorem blk8 (c : Dev nD) (t : Fin cfg0.N) (y : S1x1.Idx) : iblk m c 8 t y = V m c main_v13 y := by
  obtain ⟨-, -, -, -, -, -, -, -, -, -, -, -, -, -, -, -, e80, e81, -, -⟩ := idx_facts t
  unfold iblk
  show V m c (Pipeline.arrRef spec0 8) (((cfg0.win 8).blk t).view.emb y) = V m c (Pipeline.arrRef spec0 8) y
  refine congrArg (V m c (Pipeline.arrRef spec0 8)) (funext fun ax => Fin.ext ?_)
  match ax with
  | ⟨0, _⟩ => show win0_8.index t (0 : Fin 2) * 1 + 1 * (y 0).val = (y 0).val; omega
  | ⟨1, _⟩ => show win0_8.index t (1 : Fin 2) * 1 + 1 * (y 1).val = (y 1).val; omega

/-- What point `t` writes back is block `t` of `laneNet` of the launched arrays. -/
theorem flushed_eq (c : Dev nD) (t : Fin cfg0.N) :
    (dats m 0 c).flushed 9 t = ((cfg0.win 9).blk t).view.read (Elt Ideal)
      (laneNet (V m c main_v6) (V m c main_v8) (V m c main_v9) (V m c main_v10) (V m c main_v11) (V m c main_arg5)
        (V m c main_v12) (V m c main_arg7) (V m c main_v13)) := by
  show (cfg0.win 9).cut (grid0.coords t) ((dats m 0 c).after 9 t) = _
  rw [after0_9]
  unfold out0_9
  rw [View.canon_unit_zero Cert.LibBlock.hz]
  simp only [View.ld_unit_zero (S := S2x32768) Cert.LibBlock.hz, View.ld_unit_zero (S := S3x32768) Cert.LibBlock.hz,
    View.ld_unit_zero (S := S50x2) Cert.LibBlock.hz, View.ld_unit_zero (S := S50x3) Cert.LibBlock.hz,
    View.ld_unit_zero (S := S50x1) Cert.LibBlock.hz, View.ld_unit_zero (S := S20x50) Cert.LibBlock.hz,
    View.ld_unit_zero (S := S20x1) Cert.LibBlock.hz, View.ld_unit_zero (S := S1x20) Cert.LibBlock.hz,
    View.ld_unit_zero (S := S1x1) Cert.LibBlock.hz]
  obtain ⟨e00, e01, e10, e11, e20, e21, e30, e31, e40, e41, e50, e51, e60, e61, e70, e71, e80, e81, e90, e91⟩ := idx_facts t
  funext j
  show k0_pay1 (F := Ideal) (k0_pay2 (iblk m c 0 t) (iblk m c 1 t) (iblk m c 2 t) (iblk m c 3 t) (iblk m c 4 t)
      (iblk m c 5 t) (iblk m c 6 t) (iblk m c 7 t)) (iblk m c 8 t) j
    = laneNet (V m c main_v6) (V m c main_v8) (V m c main_v9) (V m c main_v10) (V m c main_v11) (V m c main_arg5)
        (V m c main_v12) (V m c main_arg7) (V m c main_v13) (((cfg0.win 9).blk t).view.emb j)
  refine (Body.pay_at (iblk m c 0 t) (iblk m c 1 t) (iblk m c 2 t) (iblk m c 3 t) (iblk m c 4 t) (iblk m c 5 t)
    (iblk m c 6 t) (iblk m c 7 t) (iblk m c 8 t) j).trans ?_
  unfold laneNet
  refine Cert.Mlp.mlpAt_congr ?_ ?_ ?_ ?_ ?_ ?_ ?_ ?_ ?_
  · funext a
    refine congrArg (V m c main_v6) (funext fun ax => Fin.ext ?_)
    match ax with
    | ⟨0, _⟩ => show win0_0.index t (0 : Fin 2) * 2 + 1 * a.val = a.val; omega
    | ⟨1, _⟩ => show win0_0.index t (1 : Fin 2) * 32768 + 1 * (j 1).val = win0_9.index t (1 : Fin 2) * 32768 + 1 * (j 1).val; omega
  · funext b
    refine congrArg (V m c main_v8) (funext fun ax => Fin.ext ?_)
    match ax with
    | ⟨0, _⟩ => show win0_1.index t (0 : Fin 2) * 3 + 1 * b.val = b.val; omega
    | ⟨1, _⟩ => show win0_1.index t (1 : Fin 2) * 32768 + 1 * (j 1).val = win0_9.index t (1 : Fin 2) * 32768 + 1 * (j 1).val; omega
  · funext k a
    refine congrArg (V m c main_v9) (funext fun ax => Fin.ext ?_)
    match ax with
    | ⟨0, _⟩ => show win0_2.index t (0 : Fin 2) * 50 + 1 * k.val = k.val; omega
    | ⟨1, _⟩ => show win0_2.index t (1 : Fin 2) * 2 + 1 * a.val = a.val; omega
  · funext k b
    refine congrArg (V m c main_v10) (funext fun ax => Fin.ext ?_)
    match ax with
    | ⟨0, _⟩ => show win0_3.index t (0 : Fin 2) * 50 + 1 * k.val = k.val; omega
    | ⟨1, _⟩ => show win0_3.index t (1 : Fin 2) * 3 + 1 * b.val = b.val; omega
  · funext k
    refine congrArg (V m c main_v11) (funext fun ax => Fin.ext ?_)
    match ax with
    | ⟨0, _⟩ => show win0_4.index t (0 : Fin 2) * 50 + 1 * k.val = k.val; omega
    | ⟨1, _⟩ => show win0_4.index t (1 : Fin 2) * 1 + 1 * 0 = 0; omega
  · funext i k
    refine congrArg (V m c main_arg5) (funext fun ax => Fin.ext ?_)
    match ax with
    | ⟨0, _⟩ => show win0_5.index t (0 : Fin 2) * 20 + 1 * i.val = i.val; omega
    | ⟨1, _⟩ => show win0_5.index t (1 : Fin 2) * 50 + 1 * k.val = k.val; omega
  · funext i
    refine congrArg (V m c main_v12) (funext fun ax => Fin.ext ?_)
    match ax with
    | ⟨0, _⟩ => show win0_6.index t (0 : Fin 2) * 20 + 1 * i.val = i.val; omega
    | ⟨1, _⟩ => show win0_6.index t (1 : Fin 2) * 1 + 1 * 0 = 0; omega
  · funext i
    refine congrArg (V m c main_arg7) (funext fun ax => Fin.ext ?_)
    match ax with
    | ⟨0, _⟩ => show win0_7.index t (0 : Fin 2) * 1 + 1 * 0 = 0; omega
    | ⟨1, _⟩ => show win0_7.index t (1 : Fin 2) * 20 + 1 * i.val = i.val; omega
  · exact blk8 m c t _

/-- An index of the output row is in point `t`'s block iff each coordinate is in the block's range on its axis. -/
theorem mem_blk (t : Fin cfg0.N) (i : S1x524288.Idx) :
    i ∈ ((cfg0.win 9).blk t).view.set ↔ ∀ a : Fin 2, win0_9.index t a * S1x32768.size a ≤ (i a).val
      ∧ (i a).val < win0_9.index t a * S1x32768.size a + S1x32768.size a := by
  show i ∈ ((View.whole main_v14).slice (win0_9.rect t)).set ↔ _
  rw [View.set_slice_whole, Rect.mem_set_unit]
  exact Iff.rfl

/-- The 16 blocks tile the row: lane `n` is in the block of the point whose block index is `n / 32768`. -/
theorem cover (i : S1x524288.Idx) :
    ∃ t : Fin cfg0.N, (cfg0.win 9).flush t = true ∧ i ∈ ((cfg0.win 9).blk t).view.set := by
  have hi0 : (i 0).val < 1 := (i 0).isLt
  have hi1 : (i 1).val < 524288 := (i 1).isLt
  obtain ⟨t, ht⟩ := idx_onto ⟨(i 1).val / 32768, by omega⟩
  have q0 : win0_9.index t (0 : Fin 2) = 0 := congrFun ht 0
  have q1 : win0_9.index t (1 : Fin 2) = (i 1).val / 32768 := congrFun ht 1
  refine ⟨t, flush0_9 t, ?_⟩
  rw [mem_blk]
  intro a
  match a with
  | ⟨0, _⟩ => show win0_9.index t (0 : Fin 2) * 1 ≤ (i 0).val ∧ (i 0).val < win0_9.index t (0 : Fin 2) * 1 + 1; omega
  | ⟨1, _⟩ => show win0_9.index t (1 : Fin 2) * 32768 ≤ (i 1).val ∧ (i 1).val < win0_9.index t (1 : Fin 2) * 32768 + 32768; omega

/-- THE OUTPUT ROW after the run is `laneNet` of the launched arrays. -/
theorem final (c : Dev nD) : (dats m 0 c).arrAt 9 cfg0.N
    = laneNet (V m c main_v6) (V m c main_v8) (V m c main_v9) (V m c main_v10) (V m c main_v11) (V m c main_arg5)
        (V m c main_v12) (V m c main_arg7) (V m c main_v13) :=
  (dats m 0 c).arrAt_eq_of_cover 9 _ (fun t _ => flushed_eq m c t) cover

end Cert.KernelIdeal.Region

end
-- ==== Proof.Staged.lean ====
/-
  The arrays the region is launched on, as functions of the program's arguments.

  Before the launch the host aggregates the edge features onto their target nodes (a scatter-add into a zero array,
  kept here as ONE opaque term `agg`: the reference computes the very same term), lays vertex and aggregated features
  out feature-major, pads the node axis from 500000 to 524288 lanes, splits the first layer's weights into their first
  two and last three columns, and turns each bias vector into a column. Read at an index:
    * a padded, transposed feature array at (a, n) with n < 500000 is the feature array at (n, a);
    * the two weight slices at (k, a) and (k, b) are the weight matrix at (k, a) and (k, 2 + b);
    * a bias column at (k, 0) is the bias vector at k.
  The padding lanes (n ≥ 500000) are never read back: the program's result drops them.
-/
import proofs.«145032_j69621419868748_2_alg».proof.Proof.Gen.KernelIdeal.Frame
import proofs.«145032_j69621419868748_2_alg».proof.Proof.Mlp
import proofs.«145032_j69621419868748_2_alg».proof.Proof.LibColumn
import Idealize.ShloMosaic.Lib.StableHlo.Run
import Idealize.ShloMosaic.Lib.Pipeline.Value
import Idealize.ShloMosaic.Lib.ValueIdx
import Idealize.ShloMosaic.Lib.KernelVsHost

noncomputable section

namespace Cert.KernelIdeal.Staged

open Idealize.ShloMosaic Idealize.ShloMosaic.TcCoe Idealize.SL.Sem Idealize.ShloMosaic.StableHlo
open Idealize.ShloMosaic.ValueIdx Cert.KernelIdeal Cert.KernelIdeal.Gen

/-- The edge features summed onto their target nodes: the host's scatter-add of the edge rows `x2`, at the second row
    of the edge list `x1`, into a zero [500000, 3] array. Never opened: both programs state this same term. -/
def agg (x1 : (⟨S2x16000000, .i32⟩ : BufTy).Contents (Elt Ideal)) (x2 : (⟨S16000000x3, .f32⟩ : BufTy).Contents (Elt Ideal)) :
    (⟨S500000x3, .f32⟩ : BufTy).Contents (Elt Ideal) :=
  Host.scatterAdd (F := Ideal) scatter_S500000x3_S16000000x1_S16000000x3_1_0_0_1
    (broadcastInDim S500000x3 ![] bcast_S_S500000x3 (constant (F := Ideal) S_ .f32 0x00000000#32))
    (broadcastInDim S16000000x1 ![0] bcast_S16000000_S16000000x1_0
      (shapeCast S16000000 (extractStridedSlice S1x16000000 ![1, 0] x1 slices_S2x16000000_S1x16000000_1_0) shapeCasts_S1x16000000_S16000000))
    x2

/-- The padding value of both pads: the integer zero converted to a float. -/
abbrev padv : (⟨S_, .f32⟩ : BufTy).Contents (Elt Ideal) := sitofp (F := Ideal) .f32 (constantI S_ 32 0#32)

variable (m : (ℓ : Loc nD τ sig) → Buf (Elt Ideal) ℓ)

/-! ## The launched arrays -/

theorem V_v6 (c : Dev nD) : (V m c main_v6 : S2x524288.Idx → Elt Ideal .f32)
    = pad S2x524288 ![0, 0] ![0, 24288] ![0, 0]
        (transpose S2x500000 [1, 0] (m ((c : Thread nD τ).loc main_arg0)) transposes_S500000x2_S2x500000_1_0) padv
        pads_S2x500000_S2x524288_000_0242880 h_S_ := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

/-- The aggregated features as the launch finds them: the scatter-add's result after the first host stretches. -/
theorem agg_eq (c : Dev nD) :
    (StableHlo.after hostOps0_1 (StableHlo.after hostOps0 (fun b => m (c, b))) (Proc.devRef .tc main_v4) :
        S500000x3.Idx → Elt Ideal .f32)
      = agg (m ((c : Thread nD τ).loc main_arg1)) (m ((c : Thread nD τ).loc main_arg2)) := by
  simp only [Gen.hostOps0, Gen.hostOps0_1]
  after_results
  unfold agg
  congr 1

/-- The last host stretches before the launch, from ANY earlier contents `W`: the second feature array is the padded
    transpose of whatever `W` holds as the aggregated features. -/
theorem stretch_v8 (W : Valuation τ sig (Elt Ideal)) :
    (StableHlo.after (hostOps0_2 ++ (hostOps0_3 ++ hostOps0_4)) W (Proc.devRef .tc main_v8) : S3x524288.Idx → Elt Ideal .f32)
      = pad S3x524288 ![0, 0] ![0, 24288] ![0, 0]
          (transpose S3x500000 [1, 0] (W (Proc.devRef .tc main_v4) : S500000x3.Idx → Elt Ideal .f32)
            transposes_S500000x3_S3x500000_1_0) padv
          pads_S3x500000_S3x524288_000_0242880 h_S_ := by
  simp only [Gen.hostOps0_2, Gen.hostOps0_3, Gen.hostOps0_4, List.cons_append, List.nil_append]
  after_results <;> rfl

theorem V_v8 (c : Dev nD) : (V m c main_v8 : S3x524288.Idx → Elt Ideal .f32)
    = pad S3x524288 ![0, 0] ![0, 24288] ![0, 0]
        (transpose S3x500000 [1, 0] (agg (m ((c : Thread nD τ).loc main_arg1)) (m ((c : Thread nD τ).loc main_arg2)))
          transposes_S500000x3_S3x500000_1_0) padv
        pads_S3x500000_S3x524288_000_0242880 h_S_ := by
  dsimp only [Gen.V, Gen.V0]
  simp only [List.flatten_cons, List.flatten_nil, List.append_nil]
  rw [StableHlo.after_append, StableHlo.after_append, stretch_v8, agg_eq]

theorem V_v9 (c : Dev nD) : (V m c main_v9 : S50x2.Idx → Elt Ideal .f32)
    = extractStridedSlice S50x2 ![0, 0] (m ((c : Thread nD τ).loc main_arg3)) slices_S50x5_S50x2_0_0 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

theorem V_v10 (c : Dev nD) : (V m c main_v10 : S50x3.Idx → Elt Ideal .f32)
    = extractStridedSlice S50x3 ![0, 2] (m ((c : Thread nD τ).loc main_arg3)) slices_S50x5_S50x3_0_2 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

theorem V_v11 (c : Dev nD) : (V m c main_v11 : S50x1.Idx → Elt Ideal .f32)
    = shapeCast S50x1 (m ((c : Thread nD τ).loc main_arg4)) shapeCasts_S50_S50x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

theorem V_v12 (c : Dev nD) : (V m c main_v12 : S20x1.Idx → Elt Ideal .f32)
    = shapeCast S20x1 (m ((c : Thread nD τ).loc main_arg6)) shapeCasts_S20_S20x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

theorem V_v13 (c : Dev nD) : (V m c main_v13 : S1x1.Idx → Elt Ideal .f32)
    = shapeCast S1x1 (m ((c : Thread nD τ).loc main_arg8)) shapeCasts_S1_S1x1 := by
  dsimp only [Gen.V, Gen.V0]
  simp only [Gen.hostOps0, Gen.hostOps0_1, Gen.hostOps0_2, Gen.hostOps0_3, Gen.hostOps0_4, List.flatten_cons,
    List.flatten_nil, List.append_nil, List.cons_append, List.nil_append]
  after_results <;> rfl

/-! ## Read at an index -/

/-- A feature-major, padded [2, 524288] layout of a [500000, 2] array at (a, n), n a real node. -/
theorem pad_transpose2_at (x : S500000x2.Idx → EReal) (v : S_.Idx → EReal) (a : Fin 2) (n : Fin 524288)
    (hn : n.val < 500000) :
    pad S2x524288 ![0, 0] ![0, 24288] ![0, 0] (transpose S2x500000 [1, 0] x transposes_S500000x2_S2x500000_1_0) v
        pads_S2x500000_S2x524288_000_0242880 h_S_ (ix2 a n) = x (ix2 (⟨n.val, hn⟩ : Fin 500000) a) := by
  refine (pad_apply_of_inside ![0, 0] ![0, 24288] ![0, 0] _ v pads_S2x500000_S2x524288_000_0242880 h_S_
    (ix2 a n) (ix2 a (⟨n.val, hn⟩ : Fin 500000)) (fun ax => match ax with
      | ⟨0, _⟩ => by show a.val = 0 + a.val * (0 + 1); omega
      | ⟨1, _⟩ => by show n.val = 0 + n.val * (0 + 1); omega)).trans ?_
  exact transpose_apply [1, 0] x transposes_S500000x2_S2x500000_1_0 _ (ix2 (⟨n.val, hn⟩ : Fin 500000) a)
    (fun b => match b with
      | ⟨0, _⟩ => rfl
      | ⟨1, _⟩ => rfl)

/-- A feature-major, padded [3, 524288] layout of a [500000, 3] array at (b, n), n a real node. -/
theorem pad_transpose3_at (x : S500000x3.Idx → EReal) (v : S_.Idx → EReal) (b : Fin 3) (n : Fin 524288)
    (hn : n.val < 500000) :
    pad S3x524288 ![0, 0] ![0, 24288] ![0, 0] (transpose S3x500000 [1, 0] x transposes_S500000x3_S3x500000_1_0) v
        pads_S3x500000_S3x524288_000_0242880 h_S_ (ix2 b n) = x (ix2 (⟨n.val, hn⟩ : Fin 500000) b) := by
  refine (pad_apply_of_inside ![0, 0] ![0, 24288] ![0, 0] _ v pads_S3x500000_S3x524288_000_0242880 h_S_
    (ix2 b n) (ix2 b (⟨n.val, hn⟩ : Fin 500000)) (fun ax => match ax with
      | ⟨0, _⟩ => by show b.val = 0 + b.val * (0 + 1); omega
      | ⟨1, _⟩ => by show n.val = 0 + n.val * (0 + 1); omega)).trans ?_
  exact transpose_apply [1, 0] x transposes_S500000x3_S3x500000_1_0 _ (ix2 (⟨n.val, hn⟩ : Fin 500000) b)
    (fun d => match d with
      | ⟨0, _⟩ => rfl
      | ⟨1, _⟩ => rfl)

/-- The first two columns of the first layer's weights. -/
theorem slice_lo_at (x : S50x5.Idx → EReal) (k : Fin 50) (a : Fin 2) :
    extractStridedSlice S50x2 ![0, 0] x slices_S50x5_S50x2_0_0 (ix2 k a) = x (ix2 k (Cert.Mlp.lo a)) :=
  extractStridedSlice_apply ![0, 0] x slices_S50x5_S50x2_0_0 (ix2 k a) (ix2 k (Cert.Mlp.lo a)) (fun ax => match ax with
    | ⟨0, _⟩ => by show k.val = 0 + k.val; omega
    | ⟨1, _⟩ => by show a.val = 0 + a.val; omega)

/-- The last three columns of the first layer's weights. -/
theorem slice_hi_at (x : S50x5.Idx → EReal) (k : Fin 50) (b : Fin 3) :
    extractStridedSlice S50x3 ![0, 2] x slices_S50x5_S50x3_0_2 (ix2 k b) = x (ix2 k (Cert.Mlp.hi b)) :=
  extractStridedSlice_apply ![0, 2] x slices_S50x5_S50x3_0_2 (ix2 k b) (ix2 k (Cert.Mlp.hi b)) (fun ax => match ax with
    | ⟨0, _⟩ => by show k.val = 0 + k.val; omega
    | ⟨1, _⟩ => by show b.val + 2 = 2 + b.val; omega)

end Cert.KernelIdeal.Staged

end
-- ==== Proof.Net.lean ====
/-
  The result both programs are shown to compute, as one function of the arguments.

  Node `n` of the [500000, 1] result is the three-layer network of `Mlp.mlpAt` on the node's two vertex features
  `a0 (n, ·)` and its three aggregated edge features `ag (n, ·)`, with the first layer's weight row `k` split into its
  first two and last three entries, `a3 (k, lo ·)` and `a3 (k, hi ·)`.
-/
import proofs.«145032_j69621419868748_2_alg».proof.Proof.Mlp
import Idealize.ShloMosaic.Lib.ValueIdx

noncomputable section

namespace Cert.Net

open Idealize.ShloMosaic Idealize.ShloMosaic.ValueIdx

/-- The network at every node. -/
def nodeNet (a0 : (⟨2, ![500000, 2]⟩ : Shape).Idx → EReal) (ag : (⟨2, ![500000, 3]⟩ : Shape).Idx → EReal)
    (a3 : (⟨2, ![50, 5]⟩ : Shape).Idx → EReal) (a4 : (⟨1, ![50]⟩ : Shape).Idx → EReal)
    (a5 : (⟨2, ![20, 50]⟩ : Shape).Idx → EReal) (a6 : (⟨1, ![20]⟩ : Shape).Idx → EReal)
    (a7 : (⟨2, ![1, 20]⟩ : Shape).Idx → EReal) (a8 : (⟨1, ![1]⟩ : Shape).Idx → EReal) :
    (⟨2, ![500000, 1]⟩ : Shape).Idx → EReal := fun i =>
  Cert.Mlp.mlpAt Cert.Mlp.floor32 (fun a => a0 (ix2 (⟨(i 0).val, (i 0).isLt⟩ : Fin 500000) a))
    (fun b => ag (ix2 (⟨(i 0).val, (i 0).isLt⟩ : Fin 500000) b)) (fun k a => a3 (ix2 k (Cert.Mlp.lo a)))
    (fun k b => a3 (ix2 k (Cert.Mlp.hi b))) (fun k => a4 (ix1 k)) (fun j k => a5 (ix2 j k)) (fun j => a6 (ix1 j))
    (fun j => a7 (ix2 (0 : Fin 1) j)) (a8 (ix1 (0 : Fin 1)))

end Cert.Net

end
-- ==== Proof.KernelRun.lean ====
/-
  The kernel program's run, read at its result.

  After the region the host drops the padding lanes of the [1, 524288] output row and lays the remaining 500000 lanes
  out as a [500000, 1] column: node `n` of the result is lane `n` of the row. With the row known (`Region.final`) and
  the launched arrays read back to the arguments (`Staged`), the result is `Net.nodeNet` of the arguments and of the
  aggregated edge features.
-/
import proofs.«145032_j69621419868748_2_alg».proof.Proof.Region
import proofs.«145032_j69621419868748_2_alg».proof.Proof.Staged
import proofs.«145032_j69621419868748_2_alg».proof.Proof.Net

set_option maxRecDepth 16384

noncomputable section

namespace Cert.KernelIdeal.Run

open Idealize.ShloMosaic Idealize.ShloMosaic.TcCoe Idealize.SL.Sem Idealize.ShloMosaic.StableHlo
open Idealize.ShloMosaic.ValueIdx Cert.KernelIdeal Cert.KernelIdeal.Gen

variable (m : (ℓ : Loc nD τ sig) → Buf (Elt Ideal) ℓ) (ρ : Dev nD → PrngReg)

/-- The host lines after the region, applied to the region's output row. -/
theorem tail_eq (c : Dev nD) :
    (Pipeline.afterTail₀ cfgs (dats m) 0 (V0 m) [hostOps1] c main_v17 : S500000x1.Idx → EReal)
      = shapeCast S500000x1 (shapeCast S500000 (extractStridedSlice S1x500000 ![0, 0]
          ((dats m 0 c).arrAt 9 cfg0.N : S1x524288.Idx → EReal) slices_S1x524288_S1x500000_0_0)
          shapeCasts_S1x500000_S500000) shapeCasts_S500000_S500000x1 := by
  unfold Pipeline.afterTail₀
  show StableHlo.after hostOps1 _ (Proc.devRef .tc main_v17) = _
  after_results
  have hW : Pipeline.withArrays (cfgs 0).spec c (V0 m c) (fun w => (dats m 0 c).arrAt w (cfgs 0).N)
      (Proc.devRef .tc main_v14) = (dats m 0 c).arrAt 9 cfg0.N :=
    Pipeline.withArrays_arr spec0 launch0.win.arr_inj c (V0 m c) (fun w => (dats m 0 c).arrAt w cfg0.N) 9
  rw [hW]
  rfl

/-- Node `n` of the result column is lane `n` of the row. -/
theorem unpad_at (A : S1x524288.Idx → EReal) (i : S500000x1.Idx) :
    shapeCast S500000x1 (shapeCast S500000 (extractStridedSlice S1x500000 ![0, 0] A slices_S1x524288_S1x500000_0_0)
        shapeCasts_S1x500000_S500000) shapeCasts_S500000_S500000x1 i
      = A (ix2 (0 : Fin 1) (⟨(i 0).val, by have h : (i 0).val < 500000 := (i 0).isLt; omega⟩ : Fin 524288)) := by
  have h0 : (i 0).val < 500000 := (i 0).isLt
  have h1 : (i 1).val < 1 := (i 1).isLt
  refine (shapeCast_apply _ shapeCasts_S500000_S500000x1 i (ix1 (⟨(i 0).val, h0⟩ : Fin 500000)) (by
    rw [Shape.rowMajor_val_one, Shape.rowMajor_val_two]
    show (i 0).val = (i 0).val * 1 + (i 1).val
    omega)).trans ?_
  refine (shapeCast_apply _ shapeCasts_S1x500000_S500000 (ix1 (⟨(i 0).val, h0⟩ : Fin 500000))
    (ix2 (0 : Fin 1) (⟨(i 0).val, h0⟩ : Fin 500000)) (by
    rw [Shape.rowMajor_val_one, Shape.rowMajor_val_two]
    show 0 * 500000 + (i 0).val = (i 0).val
    omega)).trans ?_
  exact extractStridedSlice_apply ![0, 0] A slices_S1x524288_S1x500000_0_0 _ _ (fun ax => match ax with
    | ⟨0, _⟩ => by show 0 = 0 + 0; omega
    | ⟨1, _⟩ => by show (i 0).val = 0 + (i 0).val; omega)

/-- The program's result is the network at every node. -/
theorem result_eq (c : Dev nD) :
    (Pipeline.afterTail₀ cfgs (dats m) 0 (V0 m) [hostOps1] c main_v17 : S500000x1.Idx → EReal)
      = Cert.Net.nodeNet (m ((c : Thread nD τ).loc main_arg0))
          (Staged.agg (m ((c : Thread nD τ).loc main_arg1)) (m ((c : Thread nD τ).loc main_arg2)))
          (m ((c : Thread nD τ).loc main_arg3)) (m ((c : Thread nD τ).loc main_arg4))
          (m ((c : Thread nD τ).loc main_arg5)) (m ((c : Thread nD τ).loc main_arg6))
          (m ((c : Thread nD τ).loc main_arg7)) (m ((c : Thread nD τ).loc main_arg8)) := by
  rw [tail_eq, Region.final]
  funext i
  have h0 : (i 0).val < 500000 := (i 0).isLt
  rw [unpad_at]
  unfold Region.laneNet Cert.Net.nodeNet
  refine Cert.Mlp.mlpAt_congr ?_ ?_ ?_ ?_ ?_ ?_ ?_ ?_ ?_
  · funext a
    rw [Staged.V_v6]
    exact Staged.pad_transpose2_at _ _ a _ h0
  · funext b
    rw [Staged.V_v8]
    exact Staged.pad_transpose3_at _ _ b _ h0
  · funext k a
    rw [Staged.V_v9]
    exact Staged.slice_lo_at _ k a
  · funext k b
    rw [Staged.V_v10]
    exact Staged.slice_hi_at _ k b
  · funext k
    rw [Staged.V_v11]
    exact Cert.LibColumn.shapeCast_a_a1_apply _ _ k 0
  · rw [V_main_arg5]
  · funext j
    rw [Staged.V_v12]
    exact Cert.LibColumn.shapeCast_a_a1_apply _ _ j 0
  · rw [V_main_arg7]
  · rw [Staged.V_v13]
    exact Cert.LibColumn.shapeCast_a_a1_apply _ _ 0 0

/-- The kernel program runs, ends with the network at every node as its result, and leaves its arguments as they
    were. -/
theorem run : θ_run defs (onTc (τ := τ) (main (F := Ideal))) ⟨m, fun _ => 0, ρ⟩ (fun r => ∀ c : Dev nD,
      r.2.mem ((c.tc : Thread nD τ).loc main_v17)
        = Cert.Net.nodeNet (m ((c.tc : Thread nD τ).loc main_arg0))
          (Staged.agg (m ((c.tc : Thread nD τ).loc main_arg1)) (m ((c.tc : Thread nD τ).loc main_arg2)))
          (m ((c.tc : Thread nD τ).loc main_arg3)) (m ((c.tc : Thread nD τ).loc main_arg4))
          (m ((c.tc : Thread nD τ).loc main_arg5)) (m ((c.tc : Thread nD τ).loc main_arg6))
          (m ((c.tc : Thread nD τ).loc main_arg7)) (m ((c.tc : Thread nD τ).loc main_arg8))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨((h c).2 main_v17 (Pipeline.mem_restRefs_of main_v17 (by decide) (by decide))).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c),
      ((h c).1 5).trans (((dats m 0 c).arrAt_in 5 rfl _).trans ((A_eq m c 5).trans (V_main_arg5 m c))),
      ((h c).2 main_arg6 (Pipeline.mem_restRefs_of main_arg6 (by decide) (by decide))).trans (W_main_arg6 m (dats m) c),
      ((h c).1 7).trans (((dats m 0 c).arrAt_in 7 rfl _).trans ((A_eq m c 7).trans (V_main_arg7 m c))),
      ((h c).2 main_arg8 (Pipeline.mem_restRefs_of main_arg8 (by decide) (by decide))).trans (W_main_arg8 m (dats m) c)⟩)
    (run_main m ρ)

end Cert.KernelIdeal.Run

end
-- ==== Proof.RefNet.lean ====
/-
  The reference program's result is the network at every node.

  The reference concatenates each node's two vertex features and three aggregated edge features into one row of five,
  contracts it against the transposed first-layer weights, adds the bias row, rectifies, and repeats for the two
  further layers. Read at node `n`, every contraction is a sum over its one contracted coordinate, each transposed
  weight matrix is the weight matrix at the swapped index, each broadcast bias is the bias vector's entry, and the
  concatenated row reads the vertex features on its first two positions and the aggregated features on its last three.
  That is `Mlp.mlpAt_of_concat`'s left side, so the result is `Net.nodeNet`.
-/
import proofs.«145032_j69621419868748_2_alg».proof.Proof.Gen.ReferenceIdeal.Read
import proofs.«145032_j69621419868748_2_alg».proof.Proof.Net
import Idealize.ShloMosaic.Lib.Pipeline.Value
import Idealize.ShloMosaic.Lib.ValueIdx

noncomputable section

open scoped BigOperators

namespace Cert.ReferenceIdeal.RefNet

open Idealize.ShloMosaic Idealize.ShloMosaic.ValueIdx Cert.ReferenceIdeal Cert.ReferenceIdeal.Gen Cert.ReferenceIdeal.Read

/-! ## The composed index maps, by coordinates -/

theorem e19l (i : S500000x1.Idx) (j : Fin 20) :
    lidx_main_v19 i j = ix2 (⟨(i 0).val, (i 0).isLt⟩ : Fin 500000) j :=
  funext fun a => Fin.ext (by match a with | ⟨0, _⟩ => rfl | ⟨1, _⟩ => rfl)

theorem e19r (i : S500000x1.Idx) (j : Fin 20) :
    idx_main_v18 (ridx_main_v19 i j) = ix2 (0 : Fin 1) j :=
  funext fun a => Fin.ext (by
    match a with
    | ⟨0, _⟩ => have h : (i 1).val < 1 := (i 1).isLt; show (i 1).val = 0; omega
    | ⟨1, _⟩ => rfl)

theorem e13l (i : S500000x20.Idx) (k : Fin 50) :
    lidx_main_v13 i k = ix2 (⟨(i 0).val, (i 0).isLt⟩ : Fin 500000) k :=
  funext fun a => Fin.ext (by match a with | ⟨0, _⟩ => rfl | ⟨1, _⟩ => rfl)

theorem e13r (i : S500000x20.Idx) (k : Fin 50) :
    idx_main_v12 (ridx_main_v13 i k) = ix2 (⟨(i 1).val, (i 1).isLt⟩ : Fin 20) k :=
  funext fun a => Fin.ext (by match a with | ⟨0, _⟩ => rfl | ⟨1, _⟩ => rfl)

theorem e15 (i : S500000x20.Idx) :
    idx_main_v14 (idx_main_v15 i) = ix1 (⟨(i 1).val, (i 1).isLt⟩ : Fin 20) :=
  funext fun a => Fin.ext (by match a with | ⟨0, _⟩ => rfl)

theorem e7l (i : S500000x50.Idx) (c : Fin 5) :
    lidx_main_v7 i c = ix2 (⟨(i 0).val, (i 0).isLt⟩ : Fin 500000) c :=
  funext fun a => Fin.ext (by match a with | ⟨0, _⟩ => rfl | ⟨1, _⟩ => rfl)

theorem e7r (i : S500000x50.Idx) (c : Fin 5) :
    idx_main_v6 (ridx_main_v7 i c) = ix2 (⟨(i 1).val, (i 1).isLt⟩ : Fin 50) c :=
  funext fun a => Fin.ext (by match a with | ⟨0, _⟩ => rfl | ⟨1, _⟩ => rfl)

theorem e9 (i : S500000x50.Idx) :
    idx_main_v8 (idx_main_v9 i) = ix1 (⟨(i 1).val, (i 1).isLt⟩ : Fin 50) :=
  funext fun a => Fin.ext (by match a with | ⟨0, _⟩ => rfl)

theorem e21 (i : S500000x1.Idx) : idx_main_v20 (idx_main_v21 i) = ix1 (0 : Fin 1) :=
  funext fun a => Fin.ext (by match a with | ⟨0, _⟩ => rfl)

/-! ## The concatenated feature row -/

/-- Its first two positions are the vertex features. -/
theorem concat_lo (x0 : S500000x2.Idx → EReal) (ag : S500000x3.Idx → EReal) (n : Fin 500000) (a : Fin 2) :
    concatenate S500000x5 1 [⟨S500000x2, x0⟩, ⟨S500000x3, ag⟩] concatenates_S500000x2_S500000x3_S500000x5_d1
      (ix2 n (Cert.Mlp.lo a)) = x0 (ix2 n a) :=
  concatenate_pair_apply_left (1 : Fin 2) x0 ag concatenates_S500000x2_S500000x3_S500000x5_d1
    (ix2 n (Cert.Mlp.lo a)) rfl (ix2 n a) (fun b => match b with
      | ⟨0, _⟩ => rfl
      | ⟨1, _⟩ => rfl)

/-- Its last three positions are the aggregated edge features. -/
theorem concat_hi (x0 : S500000x2.Idx → EReal) (ag : S500000x3.Idx → EReal) (n : Fin 500000) (b : Fin 3) :
    concatenate S500000x5 1 [⟨S500000x2, x0⟩, ⟨S500000x3, ag⟩] concatenates_S500000x2_S500000x3_S500000x5_d1
      (ix2 n (Cert.Mlp.hi b)) = ag (ix2 n b) :=
  concatenate_pair_apply_right (1 : Fin 2) x0 ag concatenates_S500000x2_S500000x3_S500000x5_d1
    (ix2 n (Cert.Mlp.hi b)) rfl rfl (ix2 n b) (fun d hd => match d with
      | ⟨0, _⟩ => rfl
      | ⟨1, _⟩ => absurd rfl hd) (by show b.val + 2 = b.val + 2; rfl)

/-! ## The result -/

/-- The reference's last stage, at node `i`, in the reference's own spelling of the network. -/
theorem stage_at (x0 : (⟨S500000x2, .f32⟩ : BufTy).Contents (Elt Ideal)) (x1 : (⟨S2x16000000, .i32⟩ : BufTy).Contents (Elt Ideal))
    (x2 : (⟨S16000000x3, .f32⟩ : BufTy).Contents (Elt Ideal)) (x3 : (⟨S50x5, .f32⟩ : BufTy).Contents (Elt Ideal))
    (x4 : (⟨S50, .f32⟩ : BufTy).Contents (Elt Ideal)) (x5 : (⟨S20x50, .f32⟩ : BufTy).Contents (Elt Ideal))
    (x6 : (⟨S20, .f32⟩ : BufTy).Contents (Elt Ideal)) (x7 : (⟨S1x20, .f32⟩ : BufTy).Contents (Elt Ideal))
    (x8 : (⟨S1, .f32⟩ : BufTy).Contents (Elt Ideal)) (i : S500000x1.Idx) :
    val_main_v22 (F := Ideal) x0 x1 x2 x3 x4 x5 x6 x7 x8 i
      = (∑ j : Fin 20, max ((∑ k : Fin 50, max ((∑ c : Fin 5,
            val_main_v5 (F := Ideal) x0 x1 x2 (ix2 (⟨(i 0).val, (i 0).isLt⟩ : Fin 500000) c) * x3 (ix2 k c)) + x4 (ix1 k))
            Cert.Mlp.floor32 * x5 (ix2 j k)) + x6 (ix1 j)) Cert.Mlp.floor32 * x7 (ix2 (0 : Fin 1) j)) + x8 (ix1 (0 : Fin 1)) := by
  rw [val_main_v22_apply, val_main_v19_apply, val_main_v21_apply, val_main_v20_apply, e21]
  simp only [e19l, val_main_v17_apply, val_main_v16_apply, val_main_v13_apply, e13l, val_main_v11_apply,
    val_main_v10_apply, val_main_v7_apply, e7l, val_main_v6_apply, e7r, val_main_v9_apply, val_main_v8_apply, e9,
    val_main_v12_apply, e13r, val_main_v15_apply, val_main_v14_apply, e15, val_main_v18_apply, e19r,
    val_main_call0_v0_apply, val_main_call0_cst_apply, val_main_call1_v0_apply, val_main_call1_cst_apply]
  rfl

/-- The reference's result is the network at every node, on the reference's own aggregated features. -/
theorem result_eq (x0 : (⟨S500000x2, .f32⟩ : BufTy).Contents (Elt Ideal)) (x1 : (⟨S2x16000000, .i32⟩ : BufTy).Contents (Elt Ideal))
    (x2 : (⟨S16000000x3, .f32⟩ : BufTy).Contents (Elt Ideal)) (x3 : (⟨S50x5, .f32⟩ : BufTy).Contents (Elt Ideal))
    (x4 : (⟨S50, .f32⟩ : BufTy).Contents (Elt Ideal)) (x5 : (⟨S20x50, .f32⟩ : BufTy).Contents (Elt Ideal))
    (x6 : (⟨S20, .f32⟩ : BufTy).Contents (Elt Ideal)) (x7 : (⟨S1x20, .f32⟩ : BufTy).Contents (Elt Ideal))
    (x8 : (⟨S1, .f32⟩ : BufTy).Contents (Elt Ideal)) :
    val_main_v22 (F := Ideal) x0 x1 x2 x3 x4 x5 x6 x7 x8
      = Cert.Net.nodeNet x0 (val_main_v4 (F := Ideal) x1 x2) x3 x4 x5 x6 x7 x8 := by
  funext i
  refine (stage_at x0 x1 x2 x3 x4 x5 x6 x7 x8 i).trans ?_
  refine (Cert.Mlp.mlpAt_of_concat Cert.Mlp.floor32
    (fun c => val_main_v5 (F := Ideal) x0 x1 x2 (ix2 (⟨(i 0).val, (i 0).isLt⟩ : Fin 500000) c))
    (fun k c => x3 (ix2 k c)) (fun k => x4 (ix1 k)) (fun j k => x5 (ix2 j k)) (fun j => x6 (ix1 j))
    (fun j => x7 (ix2 (0 : Fin 1) j)) (x8 (ix1 (0 : Fin 1)))).trans ?_
  unfold Cert.Net.nodeNet
  refine Cert.Mlp.mlpAt_congr ?_ ?_ rfl rfl rfl rfl rfl rfl rfl
  · funext a
    exact concat_lo x0 (val_main_v4 (F := Ideal) x1 x2) _ a
  · funext b
    exact concat_hi x0 (val_main_v4 (F := Ideal) x1 x2) _ b

end Cert.ReferenceIdeal.RefNet

end
-- ==== Proof.lean ====
/-
  A per-vertex update of a graph network: each node's two vertex features and the sum of the three-feature rows of the
  edges pointing at it go through a three-layer network (5 → 50 → 20 → 1, rectified between layers). The kernel program
  aggregates the edges on the host, lays the features out feature-major with the 500000 nodes padded to 524288 lanes,
  runs the network on 16 lane blocks of 32768 nodes in one launch, and drops the padding; the reference concatenates
  the features and applies the three layers to all nodes at once.

  On the extended reals the two results are equal node by node:
    * both aggregate the edges by the same scatter-add of the same arguments (one term, never opened);
    * a matrix product into a zero accumulator and the host's contraction are the same sum, and the first layer's
      contraction over the five concatenated features is the sum over the two vertex features plus the sum over the
      three aggregated ones;
    * products commute; a change of float format is the identity; the rectifier is the maximum with zero on both sides.
  None of this needs the inputs to be finite. The kernel's value is read off its generated frame run (the region's
  output row, then the host lines after it); the reference's off its generated run, one operation at a time.
  The ideal pass rewrote nothing, so the preservation claim is trivial.
-/
import proofs.«145032_j69621419868748_2_alg».proof.Defs
import proofs.«145032_j69621419868748_2_alg».proof.Proof.Gen.Kernel
import proofs.«145032_j69621419868748_2_alg».proof.Proof.Gen.Kernel.Skeleton
import proofs.«145032_j69621419868748_2_alg».proof.Proof.Gen.Kernel.Launch
import proofs.«145032_j69621419868748_2_alg».proof.Proof.Gen.Kernel.Points
import proofs.«145032_j69621419868748_2_alg».proof.Proof.Gen.Kernel.Frame
import proofs.«145032_j69621419868748_2_alg».proof.Proof.Gen.KernelIdeal
import proofs.«145032_j69621419868748_2_alg».proof.Proof.Gen.KernelIdeal.Skeleton
import proofs.«145032_j69621419868748_2_alg».proof.Proof.Gen.KernelIdeal.Launch
import proofs.«145032_j69621419868748_2_alg».proof.Proof.Gen.KernelIdeal.Points
import proofs.«145032_j69621419868748_2_alg».proof.Proof.Gen.KernelIdeal.Frame
import proofs.«145032_j69621419868748_2_alg».proof.Proof.Gen.ReferenceIdeal
import proofs.«145032_j69621419868748_2_alg».proof.Proof.Gen.Pre_finite_inputs
import proofs.«145032_j69621419868748_2_alg».proof.Proof.Gen.ReferenceIdeal.Run
import proofs.«145032_j69621419868748_2_alg».proof.Proof.Gen.ReferenceIdeal.Read
import proofs.«145032_j69621419868748_2_alg».proof.Proof.KernelRun
import proofs.«145032_j69621419868748_2_alg».proof.Proof.RefNet
import Idealize.ShloMosaic.Adequacy
import Idealize.ShloMosaic.Init

noncomputable section

namespace Cert.Proof

open Idealize.ShloMosaic Idealize.ShloMosaic.TcCoe Idealize.SL.Sem

theorem frame_kernel : Cert.frame_Kernel := fun m ρ _ => Cert.Kernel.Gen.frame m ρ

theorem frame_kernelIdeal : Cert.frame_KernelIdeal := fun m ρ _ => Cert.KernelIdeal.Gen.frame m ρ

/-- The reference has no kernel: its frame is its run with the result dropped. -/
theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- The two programs aggregate the edge features by one and the same term. -/
theorem agg_same (x1 : (⟨Cert.ReferenceIdeal.S2x16000000, .i32⟩ : BufTy).Contents (Elt Ideal))
    (x2 : (⟨Cert.ReferenceIdeal.S16000000x3, .f32⟩ : BufTy).Contents (Elt Ideal)) :
    Cert.ReferenceIdeal.Read.val_main_v4 (F := Ideal) x1 x2 = Cert.KernelIdeal.Staged.agg x1 x2 := rfl

/-- From memories agreeing on the arguments both programs end with the network at every node as their result. -/
theorem algebraic : Cert.algebraic_KernelIdeal_ReferenceIdeal := by
  intro m ρ m' ρ' _ hagree
  refine ⟨_, Cert.KernelIdeal.Run.run m ρ, ?_⟩
  refine (θ_run Cert.ReferenceIdeal.defs _ _).mono (fun _ h c => ⟨(h c).1.trans ?_, (h c).2⟩)
    (Cert.ReferenceIdeal.Value.run (F := Ideal) m' ρ')
  refine (Cert.ReferenceIdeal.Read.val_main_v22_eq _ _ _ _ _ _ _ _ _).trans ?_
  refine (Cert.ReferenceIdeal.RefNet.result_eq _ _ _ _ _ _ _ _ _).trans ?_
  rw [agg_same, (hagree c).1, (hagree c).2.1, (hagree c).2.2.1, (hagree c).2.2.2.1, (hagree c).2.2.2.2.1,
    (hagree c).2.2.2.2.2.1, (hagree c).2.2.2.2.2.2.1, (hagree c).2.2.2.2.2.2.2.1, (hagree c).2.2.2.2.2.2.2.2]

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
